-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128x128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S256x128 .f32) (main_arg8 : FVec F S128 .f32) (main_arg9 : FVec F S256x128 .f32) (main_arg10 : FVec F S128 .f32) (main_arg11 : FVec F S128x128 .f32) (main_arg12 : FVec F S128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S256x128 .f32) (main_arg6 : FVec F S128 .f32) (main_arg7 : FVec F S256x128 .f32) (main_arg8 : FVec F S128 .f32) (main_arg9 : FVec F S256x128 .f32) (main_arg10 : FVec F S128 .f32) (main_arg11 : FVec F S128x128 .f32) (main_arg12 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S262144x128 .f32) (main_arg1 : FVec F S262144x128 .f32) (main_arg2 : FVec F S262144x128 .f32) (main_arg3 : FVec F S256x128 .f32) (main_arg4 : FVec F S128 .f32) (main_arg5 : FVec F S256x128 .f32) (main_arg6 : FVec F S128 .f32) (main_arg7 : FVec F S256x128 .f32) (main_arg8 : FVec F S128 .f32) (main_arg9 : FVec F S256x128 .f32) (main_arg10 : FVec F S128 .f32) (main_arg11 : FVec F S128x128 .f32) (main_arg12 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_v13 main_v16
-- ==== Kernel.lean ====
abbrev S262144x128 : Shape := ⟨2, ![262144, 128]⟩
abbrev S256x128 : Shape := ⟨2, ![256, 128]⟩
abbrev S128 : Shape := ⟨1, ![128]⟩
abbrev S128x128 : Shape := ⟨2, ![128, 128]⟩
abbrev S256x512 : Shape := ⟨2, ![256, 512]⟩
abbrev S512 : Shape := ⟨1, ![512]⟩
abbrev S1x512 : Shape := ⟨2, ![1, 512]⟩
abbrev S1x128 : Shape := ⟨2, ![1, 128]⟩
abbrev S4096x128 : Shape := ⟨2, ![4096, 128]⟩
abbrev S1024x128 : Shape := ⟨2, ![1024, 128]⟩
abbrev S1024x256 : Shape := ⟨2, ![1024, 256]⟩
abbrev S1024x512 : Shape := ⟨2, ![1024, 512]⟩

abbrev nBuf : Space → Nat
  | .hbm => 21
  | .vmem => 14
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S256x512, .f32⟩
  | .hbm, ⟨14, _⟩ => ⟨S256x512, .bf16⟩
  | .hbm, ⟨15, _⟩ => ⟨S512, .f32⟩
  | .hbm, ⟨16, _⟩ => ⟨S1x512, .f32⟩
  | .hbm, ⟨17, _⟩ => ⟨S128x128, .bf16⟩
  | .hbm, ⟨18, _⟩ => ⟨S1x128, .f32⟩
  | .hbm, ⟨19, _⟩ => ⟨S262144x128, .f32⟩
  | .hbm, ⟨20, _⟩ => ⟨S262144x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S256x512, .bf16⟩
  | .local _ .vmem, ⟨7, _⟩ => ⟨S1x512, .f32⟩
  | .local _ .vmem, ⟨8, _⟩ => ⟨S128x128, .bf16⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v9 : BitVec 32 := Scalar.muli arg10 c1024_i32
  v9
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1024_i32 : BitVec 32 := 1024#32
  let v9 : BitVec 32 := Scalar.muli arg10 c1024_i32
  let v10 : BitVec 32 := v9
  let v11 : Index := Scalar.indexCast v10
  let c0_8 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S256x128_S256x128_S256x128_S256x128_S256x512_d1 : Shape.Concatenates [S256x128, S256x128, S256x128, S256x128] S256x512 1
  bitsLt_bf16_f32 : FTy.bits .bf16 < FTy.bits .f32
  concatenates_S128_S128_S128_S128_S512_d0 : Shape.Concatenates [S128, S128, S128, S128] S512 0
  shapeCasts_S512_S1x512 : S512.ShapeCasts S1x512
  shapeCasts_S128_S1x128 : S128.ShapeCasts S1x128
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S1024x128 : 0 < S1024x128.numel
  concatenates_S1024x128_S1024x128_S1024x256_d1 : Shape.Concatenates [S1024x128, S1024x128] S1024x256 1
  broadcasts_S1x512_S1024x512 : S1x512.Broadcasts S1024x512
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  broadcasts_S1x128_S1024x128 : S1x128.Broadcasts S1024x128
  dot_S1024x256_S256x512_S1024x512_1_0_0_1_n_n_wf : DotDims.WF S1024x256 S256x512 S1024x512 [1] [0] [0] [1] [] []
  dot_S1024x128_S128x128_S1024x128_1_0_0_1_n_n_wf : DotDims.WF S1024x128 S128x128 S1024x128 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S262144x128.size a
  hwx0_7 : ∀ i : grid0.Coords, EltTy.bits .f32 = 32 ∨ (Rect.block (s := S262144x128) S4096x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S262144x128.size a
  hwx0_8 : ∀ i : grid0.Coords, EltTy.bits .f32 = 32 ∨ (Rect.block (s := S262144x128) S4096x128.size (cc0_transform_8 i) (hinb0_8 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S4096x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S4096x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x128 : Shape := ⟨2, ![262144, 128]⟩
abbrev S256x128 : Shape := ⟨2, ![256, 128]⟩
abbrev S128 : Shape := ⟨1, ![128]⟩
abbrev S128x128 : Shape := ⟨2, ![128, 128]⟩
abbrev S262144x256 : Shape := ⟨2, ![262144, 256]⟩
abbrev S256x512 : Shape := ⟨2, ![256, 512]⟩
abbrev S512 : Shape := ⟨1, ![512]⟩
abbrev S262144x512 : Shape := ⟨2, ![262144, 512]⟩
abbrev S1x512 : Shape := ⟨2, ![1, 512]⟩
abbrev S_ : Shape := ⟨0, ![]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S262144x256, .f32⟩
  | .hbm, ⟨14, _⟩ => ⟨S256x512, .f32⟩
  | .hbm, ⟨15, _⟩ => ⟨S512, .f32⟩
  | .hbm, ⟨16, _⟩ => ⟨S262144x512, .f32⟩
  | .hbm, ⟨17, _⟩ => ⟨S1x512, .f32⟩
  | .hbm, ⟨18, _⟩ => ⟨S262144x512, .f32⟩
  | .hbm, ⟨19, _⟩ => ⟨S262144x512, .f32⟩
  | .hbm, ⟨20, _⟩ => ⟨S262144x128, .f32⟩
  | .hbm, ⟨21, _⟩ => ⟨S262144x128, .f32⟩
  | .hbm, ⟨22, _⟩ => ⟨S262144x128, .f32⟩
  | .hbm, ⟨23, _⟩ => ⟨S262144x128, .f32⟩
  | .hbm, ⟨24, _⟩ => ⟨S262144x128, .f32⟩
  | .hbm, ⟨25, _⟩ => ⟨S262144x128, .f32⟩
  | .hbm, ⟨26, _⟩ => ⟨S_, .f32⟩
  | .hbm, ⟨27, _⟩ => ⟨S262144x128, .f32⟩
  | .hbm, ⟨28, _⟩ => ⟨S262144x128, .f32⟩
  | .hbm, ⟨29, _⟩ => ⟨S_, .f32⟩
  | .hbm, ⟨30, _⟩ => ⟨S262144x128, .f32⟩
  | .hbm, ⟨31, _⟩ => ⟨S262144x128, .f32⟩
  | .hbm, ⟨32, _⟩ => ⟨S262144x128, .f32⟩
  | .hbm, ⟨33, _⟩ => ⟨S262144x128, .f32⟩
  | .hbm, ⟨34, _⟩ => ⟨S_, .f32⟩
  | .hbm, ⟨35, _⟩ => ⟨S262144x128, .f32⟩
  | .hbm, ⟨36, _⟩ => ⟨S262144x128, .f32⟩
  | .hbm, ⟨37, _⟩ => ⟨S_, .f32⟩
  | .hbm, ⟨38, _⟩ => ⟨S262144x128, .f32⟩
  | .hbm, ⟨39, _⟩ => ⟨S262144x128, .f32⟩
  | .hbm, ⟨40, _⟩ => ⟨S262144x128, .f32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S262144x128, .f32⟩
  | .hbm, ⟨45, _⟩ => ⟨S262144x128, .f32⟩
  | .hbm, ⟨46, _⟩ => ⟨S_, .f32⟩
  | .hbm, ⟨47, _⟩ => ⟨S262144x128, .f32⟩
  | .hbm, ⟨48, _⟩ => ⟨S262144x128, .f32⟩
  | .hbm, ⟨49, _⟩ => ⟨S_, .f32⟩
  | .hbm, ⟨50, _⟩ => ⟨S262144x128, .f32⟩
  | .hbm, ⟨51, _⟩ => ⟨S262144x128, .f32⟩
  | .hbm, ⟨52, _⟩ => ⟨S262144x128, .f32⟩
  | .hbm, ⟨53, _⟩ => ⟨S1x128, .f32⟩
  | .hbm, ⟨54, _⟩ => ⟨S262144x128, .f32⟩
  | .hbm, ⟨55, _⟩ => ⟨S262144x128, .f32⟩
  | .hbm, ⟨56, _⟩ => ⟨S262144x128, .f32⟩
  | .hbm, ⟨57, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  concatenates_S262144x128_S262144x128_S262144x256_d1 : Shape.Concatenates [S262144x128, S262144x128] S262144x256 1
  concatenates_S256x128_S256x128_S256x128_S256x128_S256x512_d1 : Shape.Concatenates [S256x128, S256x128, S256x128, S256x128] S256x512 1
  concatenates_S128_S128_S128_S128_S512_d0 : Shape.Concatenates [S128, S128, S128, S128] S512 0
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  slices_S262144x512_S262144x128_0_0 : S262144x512.Slices ![0, 0] S262144x128
  slices_S262144x512_S262144x128_0_128 : S262144x512.Slices ![0, 128] S262144x128
  slices_S262144x512_S262144x128_0_256 : S262144x512.Slices ![0, 256] S262144x128
  slices_S262144x512_S262144x128_0_384 : S262144x512.Slices ![0, 384] S262144x128
  bcast_S_S262144x128 : S_.BroadcastsInDim S262144x128 (![] : Fin 0 → Fin S262144x128.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  dot_S262144x256_S256x512_S262144x512_1_0_0_1_n_n_wf : DotDims.WF S262144x256 S256x512 S262144x512 [1] [0] [0] [1] [] []
  dot_S262144x128_S128x128_S262144x128_1_0_0_1_n_n_wf : DotDims.WF S262144x128 S128x128 S262144x128 [1] [0] [0] [1] [] []

variable [Facts₀]

def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.BitsEntry.lean ====
/-
  The region of `Kernel`'s @main as its one pallas_call finds it, for every float instance.

  @main runs six host operations and then the pallas_call: the four gates' weights joined along the columns and
  rounded to bf16, the four biases joined and laid out as one row, the output projection rounded to bf16, its bias
  laid out as one row. None of them writes an argument array, so the region finds every argument as launched; the
  four arrays they do write are the region's operands 3 to 6.

  The grid has 64 points. Operands 0 to 2 (the batch arrays `x`, `h`, `c`) and both results move one block of
  4096 rows per point; operands 3 to 6 are one block each, brought in at the first point and left in place, so at
  every point each input's staging buffer holds that point's block of its array whether or not it was brought in
  there. What a run leaves in the argument arrays is then read off the launch library's post: an argument a window
  stages ends as its array was on entry, any other argument is no window's array and ends as the region found it.
-/
import proofs.«123726_j30142080483674_2_alg».proof.Proof.Gen.Kernel.Launch
import proofs.«123726_j30142080483674_2_alg».proof.Proof.Gen.Kernel.Skeleton
import proofs.«123726_j30142080483674_2_alg».proof.Proof.Gen.Kernel.Loops
import proofs.«123726_j30142080483674_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations. -/
abbrev atEntry (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is its host operations and then the region. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- None of the six host operations writes argument 0: the region finds it as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 1: the region finds it as launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 2: the region finds it as launched. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 3: the region finds it as launched. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 4: the region finds it as launched. -/
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 5: the region finds it as launched. -/
theorem entry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 6: the region finds it as launched. -/
theorem entry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 7: the region finds it as launched. -/
theorem entry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 8: the region finds it as launched. -/
theorem entry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 9: the region finds it as launched. -/
theorem entry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 10: the region finds it as launched. -/
theorem entry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 11: the region finds it as launched. -/
theorem entry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 12: the region finds it as launched. -/
theorem entry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! Each input window's current staging buffer holds its block at every point, brought in there or not: where it
    was not, the block index has not moved since the point before. -/

theorem input_in_place_0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem input_in_place_1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem input_in_place_2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem input_in_place_3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem input_in_place_4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem input_in_place_5 {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem input_in_place_6 {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The argument arrays after a run -/

/-- In a final state satisfying the launch library's post, for any proof data whose arrays are the region-entry
    contents, every argument array is as launched: one a window stages ends as its array was on entry, any other is
    no window's array and ends as the region found it. -/
theorem args_as_launched (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) :=
  ⟨((h c).1 0).trans (((dats 0 c).arrAt_in 0 rfl _).trans ((hA c 0).trans (entry_arg0 m c))),
    ((h c).1 1).trans (((dats 0 c).arrAt_in 1 rfl _).trans ((hA c 1).trans (entry_arg1 m c))),
    ((h c).1 2).trans (((dats 0 c).arrAt_in 2 rfl _).trans ((hA c 2).trans (entry_arg2 m c))),
    ((h c).2 main_arg3 (Pipeline.mem_restRefs_of main_arg3 (by decide) (by decide))).trans (entry_arg3 m c),
    ((h c).2 main_arg4 (Pipeline.mem_restRefs_of main_arg4 (by decide) (by decide))).trans (entry_arg4 m c),
    ((h c).2 main_arg5 (Pipeline.mem_restRefs_of main_arg5 (by decide) (by decide))).trans (entry_arg5 m c),
    ((h c).2 main_arg6 (Pipeline.mem_restRefs_of main_arg6 (by decide) (by decide))).trans (entry_arg6 m c),
    ((h c).2 main_arg7 (Pipeline.mem_restRefs_of main_arg7 (by decide) (by decide))).trans (entry_arg7 m c),
    ((h c).2 main_arg8 (Pipeline.mem_restRefs_of main_arg8 (by decide) (by decide))).trans (entry_arg8 m c),
    ((h c).2 main_arg9 (Pipeline.mem_restRefs_of main_arg9 (by decide) (by decide))).trans (entry_arg9 m c),
    ((h c).2 main_arg10 (Pipeline.mem_restRefs_of main_arg10 (by decide) (by decide))).trans (entry_arg10 m c),
    ((h c).2 main_arg11 (Pipeline.mem_restRefs_of main_arg11 (by decide) (by decide))).trans (entry_arg11 m c),
    ((h c).2 main_arg12 (Pipeline.mem_restRefs_of main_arg12 (by decide) (by decide))).trans (entry_arg12 m c)⟩

/-- So a run to that post is a run after which every argument array is as launched. -/
theorem frame_from_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => args_as_launched m dats hA r h c) h

/-! ## The staging memrefs the body is called with -/

/-- One staging buffer of each result window, through which its contents are stated. -/
abbrev hiddenView : View sig .tc .vmem S4096x128 .f32 := (Memref.whole cc0_stg7_0 : Memref sig .tc .vmem S4096x128 .f32).view
abbrev cellView : View sig .tc .vmem S4096x128 .f32 := (Memref.whole cc0_stg8_0 : Memref sig .tc .vmem S4096x128 .f32).view

abbrev mem0 (t : Fin cfg0.N) := win0_0.stage (cfg0.slots t 0)
abbrev whole0 (t : Fin cfg0.N) : (mem0 t).IsWhole := hstage0_0 ((cfg0.slots t 0).cast nbuf0_0)
abbrev mem1 (t : Fin cfg0.N) := win0_1.stage (cfg0.slots t 1)
abbrev whole1 (t : Fin cfg0.N) : (mem1 t).IsWhole := hstage0_1 ((cfg0.slots t 1).cast nbuf0_1)
abbrev mem2 (t : Fin cfg0.N) := win0_2.stage (cfg0.slots t 2)
abbrev whole2 (t : Fin cfg0.N) : (mem2 t).IsWhole := hstage0_2 ((cfg0.slots t 2).cast nbuf0_2)
abbrev mem3 (t : Fin cfg0.N) := win0_3.stage (cfg0.slots t 3)
abbrev whole3 (t : Fin cfg0.N) : (mem3 t).IsWhole := hstage0_3 ((cfg0.slots t 3).cast nbuf0_3)
abbrev mem4 (t : Fin cfg0.N) := win0_4.stage (cfg0.slots t 4)
abbrev whole4 (t : Fin cfg0.N) : (mem4 t).IsWhole := hstage0_4 ((cfg0.slots t 4).cast nbuf0_4)
abbrev mem5 (t : Fin cfg0.N) := win0_5.stage (cfg0.slots t 5)
abbrev whole5 (t : Fin cfg0.N) : (mem5 t).IsWhole := hstage0_5 ((cfg0.slots t 5).cast nbuf0_5)
abbrev mem6 (t : Fin cfg0.N) := win0_6.stage (cfg0.slots t 6)
abbrev whole6 (t : Fin cfg0.N) : (mem6 t).IsWhole := hstage0_6 ((cfg0.slots t 6).cast nbuf0_6)
abbrev mem7 (t : Fin cfg0.N) := win0_7.stage (cfg0.slots t 7)
abbrev whole7 (t : Fin cfg0.N) : (mem7 t).IsWhole := hstage0_7 ((cfg0.slots t 7).cast nbuf0_7)
abbrev mem8 (t : Fin cfg0.N) := win0_8.stage (cfg0.slots t 8)
abbrev whole8 (t : Fin cfg0.N) : (mem8 t).IsWhole := hstage0_8 ((cfg0.slots t 8).cast nbuf0_8)

end Cert.Kernel.Region

end
-- ==== Proof.BitsBody.lean ====
/-
  The body of `Kernel`'s kernel run once, on any whole staging memrefs, for every float instance.

  The body reads the four resident operands whole (fused weights, fused bias row, output projection, its bias row)
  and then makes four trips; trip `k` reads rows `1024 k … 1024 k + 1023` of the three batch blocks and writes the
  same rows of the two result blocks. Given the seven input buffers at their contents and the two result buffers at
  anything, it runs to the end leaving the inputs as they were and each result buffer with the trips' pieces written
  into it; which pieces is what the run itself finds, trip by trip through the loop's invariant.
-/
import proofs.«123726_j30142080483674_2_alg».proof.Proof.BitsEntry

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body leaves in the hidden-state block and in the cell-state block (last first), with the proof
    that it runs: inputs held at their contents and returned so, each result buffer held at anything and returned
    with its pieces written. -/
noncomputable def bodyRun (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole)
    (x0 : Vec F S4096x128 .f32) (x1 : Vec F S4096x128 .f32) (x2 : Vec F S4096x128 .f32) (x3 : Vec F S256x512 .bf16) (x4 : Vec F S1x512 .f32) (x5 : Vec F S128x128 .bf16) (x6 : Vec F S1x128 .f32) :
    Σ' (Lh : List (View.Piece (Elt F) S4096x128 .f32)), { Lc : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f Lh)
                ∗ (∃ f, arg9.view.loc (c : Thread nD τ) ↦[arg9.view.set]{fullShare} arg9.view.writes (Elt F) f Lc)) -∗ K ⟨⟩))
          ⊢ wp frame (wpE (defs₀ (F := F)) Variants.none c none) E (cc0__lstm_kernel i arg1 harg1 arg2 harg2 arg3 harg3 arg4 harg4 arg5 harg5 arg6 harg6 arg7 harg7 arg8 harg8 arg9 harg9) K } := by
  refine ⟨?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact H8

end Cert.Kernel.Region

end
-- ==== Proof.BitsFrame.lean ====
/-
  The frame of `Kernel`: its run through the launch library, for every float instance.

  The two result blocks after the body are the trips' pieces read back; four pieces of 1024 rows tile a block of
  4096 rows, so the read-back does not depend on what the buffer held before. The proof data says: every array is
  as the region found it; after the body at a point every input's buffer still holds its block and the two result
  buffers hold those read-backs. The body's obligation at a generic point is then the body's run; the launch
  library turns it into a run of @main, and the argument arrays end as launched.
-/
import proofs.«123726_j30142080483674_2_alg».proof.Proof.BitsBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result blocks after the body -/

/-- The four trips' pieces tile the hidden-state block, so they cover it. -/
theorem cover_hidden (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole)
    (x0 : Vec F S4096x128 .f32) (x1 : Vec F S4096x128 .f32) (x2 : Vec F S4096x128 .f32) (x3 : Vec F S256x512 .bf16) (x4 : Vec F S1x512 .f32) (x5 : Vec F S128x128 .bf16) (x6 : Vec F S1x128 .f32) (y : S4096x128.Idx) :
    ∃ pc ∈ (bodyRun c i arg1 harg1 arg2 harg2 arg3 harg3 arg4 harg4 arg5 harg5 arg6 harg6 arg7 harg7 arg8 harg8 arg9 harg9 x0 x1 x2 x3 x4 x5 x6).1, y ∈ pc.1.set :=
  View.cover_of_tiledL (bodyRun c i arg1 harg1 arg2 harg2 arg3 harg3 arg4 harg4 arg5 harg5 arg6 harg6 arg7 harg7 arg8 harg8 arg9 harg9 x0 x1 x2 x3 x4 x5 x6).1 S1024x128.size (by sl_kernel_rfl) y

/-- The four trips' pieces tile the cell-state block, so they cover it. -/
theorem cover_cell (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole)
    (x0 : Vec F S4096x128 .f32) (x1 : Vec F S4096x128 .f32) (x2 : Vec F S4096x128 .f32) (x3 : Vec F S256x512 .bf16) (x4 : Vec F S1x512 .f32) (x5 : Vec F S128x128 .bf16) (x6 : Vec F S1x128 .f32) (y : S4096x128.Idx) :
    ∃ pc ∈ (bodyRun c i arg1 harg1 arg2 harg2 arg3 harg3 arg4 harg4 arg5 harg5 arg6 harg6 arg7 harg7 arg8 harg8 arg9 harg9 x0 x1 x2 x3 x4 x5 x6).2.1, y ∈ pc.1.set :=
  View.cover_of_tiledL (bodyRun c i arg1 harg1 arg2 harg2 arg3 harg3 arg4 harg4 arg5 harg5 arg6 harg6 arg7 harg7 arg8 harg8 arg9 harg9 x0 x1 x2 x3 x4 x5 x6).2.1 S1024x128.size (by sl_kernel_rfl) y

/-- What the body leaves in the hidden-state block: its pieces read back. -/
def hiddenOut (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole)
    (x0 : Vec F S4096x128 .f32) (x1 : Vec F S4096x128 .f32) (x2 : Vec F S4096x128 .f32) (x3 : Vec F S256x512 .bf16) (x4 : Vec F S1x512 .f32) (x5 : Vec F S128x128 .bf16) (x6 : Vec F S1x128 .f32) : Vec F S4096x128 .f32 :=
  hiddenView.read (Elt F) (hiddenView.writes (Elt F) hiddenView.junk (bodyRun c i arg1 harg1 arg2 harg2 arg3 harg3 arg4 harg4 arg5 harg5 arg6 harg6 arg7 harg7 arg8 harg8 arg9 harg9 x0 x1 x2 x3 x4 x5 x6).1)

/-- What the body leaves in the cell-state block: its pieces read back. -/
def cellOut (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole)
    (x0 : Vec F S4096x128 .f32) (x1 : Vec F S4096x128 .f32) (x2 : Vec F S4096x128 .f32) (x3 : Vec F S256x512 .bf16) (x4 : Vec F S1x512 .f32) (x5 : Vec F S128x128 .bf16) (x6 : Vec F S1x128 .f32) : Vec F S4096x128 .f32 :=
  cellView.read (Elt F) (cellView.writes (Elt F) cellView.junk (bodyRun c i arg1 harg1 arg2 harg2 arg3 harg3 arg4 harg4 arg5 harg5 arg6 harg6 arg7 harg7 arg8 harg8 arg9 harg9 x0 x1 x2 x3 x4 x5 x6).2.1)

/-- The two result blocks after the body at point `t`: the run's, at the point's memrefs and input blocks. -/
def hiddenAt (c : Dev nD) (t : Fin cfg0.N) : Vec F S4096x128 .f32 :=
  hiddenOut c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (blockAt m c 0 t) (blockAt m c 1 t) (blockAt m c 2 t) (blockAt m c 3 t) (blockAt m c 4 t) (blockAt m c 5 t) (blockAt m c 6 t)
def cellAt (c : Dev nD) (t : Fin cfg0.N) : Vec F S4096x128 .f32 :=
  cellOut c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (blockAt m c 0 t) (blockAt m c 1 t) (blockAt m c 2 t) (blockAt m c 3 t) (blockAt m c 4 t) (blockAt m c 5 t) (blockAt m c 6 t)

/-! ## The proof data -/

/-- On core `c`: the arrays as the region finds them; after the body at point `t` each input's buffer at its
    block, the two results' at what the body leaves; the region's invariant the scoped rest and the generator
    register; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => hiddenAt m c t
    | ⟨8, _⟩ => cellAt m c t
  Φ _ := Pipeline.ΦA spec0 c
  q _ := fullShare
  owed _ := 0

theorem arrays_at_entry (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = hiddenAt m c t := by dsimp only [dats]
theorem after_8 (c : Dev nD) (t : Fin cfg0.N) : (dats m 0 c).after 8 t = cellAt m c t := by dsimp only [dats]

theorem before_0 (c : Dev nD) (t : Fin cfg0.N) (d) : (dats m 0 c).before 0 t d = blockAt m c 0 t :=
  input_in_place_0 m (dats m 0 c) (arrays_at_entry m c 0) (after_0 m c) t d
theorem before_1 (c : Dev nD) (t : Fin cfg0.N) (d) : (dats m 0 c).before 1 t d = blockAt m c 1 t :=
  input_in_place_1 m (dats m 0 c) (arrays_at_entry m c 1) (after_1 m c) t d
theorem before_2 (c : Dev nD) (t : Fin cfg0.N) (d) : (dats m 0 c).before 2 t d = blockAt m c 2 t :=
  input_in_place_2 m (dats m 0 c) (arrays_at_entry m c 2) (after_2 m c) t d
theorem before_3 (c : Dev nD) (t : Fin cfg0.N) (d) : (dats m 0 c).before 3 t d = blockAt m c 3 t :=
  input_in_place_3 m (dats m 0 c) (arrays_at_entry m c 3) (after_3 m c) t d
theorem before_4 (c : Dev nD) (t : Fin cfg0.N) (d) : (dats m 0 c).before 4 t d = blockAt m c 4 t :=
  input_in_place_4 m (dats m 0 c) (arrays_at_entry m c 4) (after_4 m c) t d
theorem before_5 (c : Dev nD) (t : Fin cfg0.N) (d) : (dats m 0 c).before 5 t d = blockAt m c 5 t :=
  input_in_place_5 m (dats m 0 c) (arrays_at_entry m c 5) (after_5 m c) t d
theorem before_6 (c : Dev nD) (t : Fin cfg0.N) (d) : (dats m 0 c).before 6 t d = blockAt m c 6 t :=
  input_in_place_6 m (dats m 0 c) (arrays_at_entry m c 6) (after_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ owns (c : Thread nD τ) (mem8 t) fullShare ((dats m 0 c).after 8 t))

set_option maxHeartbeats 1000000 in
/-- The body at any point: the inputs' buffers hold their blocks, so the run applies; the invariant passes through
    unread; the core owes nothing throughout; the result buffers end at the pieces read back, whatever they held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  unfold hiddenAt cellAt
  unfold hiddenOut cellOut
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((bodyRun c (grid0.coords t) _ _ _ _ _ _ _ _ _ _ _ _ _ _ _ _ _ _ (blockAt m c 0 t) (blockAt m c 1 t) (blockAt m c 2 t) (blockAt m c 3 t) (blockAt m c 4 t) (blockAt m c 5 t) (blockAt m c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover_hidden c _ _ _ _ _ _ _ _ _ _ _ _ _ _ _ _ _ _ _ _ _ _ _ _ _ _)
  unfold owns; iexists _; isplitr
  swap; · iexact H8
  ipureintro; exact View.read_writes_of_cover _ _ _ _ _ (cover_cell c _ _ _ _ _ _ _ _ _ _ _ _ _ _ _ _ _ _ _ _ _ _ _ _ _ _)

/-- The launch library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the
    pipeline at what the launch library computes from the proof data and every other unscoped buffer as the
    region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_region m Variants.none) (hA := arrays_at_entry m) (hΦ := fun _ _ => rfl)

/-- The frame: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_from_run m ρ (dats m) (arrays_at_entry m) (run_main m ρ)

end Cert.Kernel.Region

end
-- ==== Proof.IdealEntry.lean ====
/-
  The region of `KernelIdeal`'s @main as its one pallas_call finds it, for every float instance.

  @main runs six host operations and then the pallas_call: the four gates' weights joined along the columns and
  rounded to bf16, the four biases joined and laid out as one row, the output projection rounded to bf16, its bias
  laid out as one row. None of them writes an argument array, so the region finds every argument as launched; the
  four arrays they do write are the region's operands 3 to 6.

  The grid has 64 points. Operands 0 to 2 (the batch arrays `x`, `h`, `c`) and both results move one block of
  4096 rows per point; operands 3 to 6 are one block each, brought in at the first point and left in place, so at
  every point each input's staging buffer holds that point's block of its array whether or not it was brought in
  there. What a run leaves in the argument arrays is then read off the launch library's post: an argument a window
  stages ends as its array was on entry, any other argument is no window's array and ends as the region found it.
-/
import proofs.«123726_j30142080483674_2_alg».proof.Proof.Gen.KernelIdeal.Launch
import proofs.«123726_j30142080483674_2_alg».proof.Proof.Gen.KernelIdeal.Skeleton
import proofs.«123726_j30142080483674_2_alg».proof.Proof.Gen.KernelIdeal.Loops
import proofs.«123726_j30142080483674_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations. -/
abbrev atEntry (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is its host operations and then the region. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- None of the six host operations writes argument 0: the region finds it as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 1: the region finds it as launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 2: the region finds it as launched. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 3: the region finds it as launched. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 4: the region finds it as launched. -/
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 5: the region finds it as launched. -/
theorem entry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 6: the region finds it as launched. -/
theorem entry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 7: the region finds it as launched. -/
theorem entry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 8: the region finds it as launched. -/
theorem entry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 9: the region finds it as launched. -/
theorem entry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 10: the region finds it as launched. -/
theorem entry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 11: the region finds it as launched. -/
theorem entry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- None of the six host operations writes argument 12: the region finds it as launched. -/
theorem entry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! Each input window's current staging buffer holds its block at every point, brought in there or not: where it
    was not, the block index has not moved since the point before. -/

theorem input_in_place_0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem input_in_place_1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem input_in_place_2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem input_in_place_3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem input_in_place_4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem input_in_place_5 {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem input_in_place_6 {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The argument arrays after a run -/

/-- In a final state satisfying the launch library's post, for any proof data whose arrays are the region-entry
    contents, every argument array is as launched: one a window stages ends as its array was on entry, any other is
    no window's array and ends as the region found it. -/
theorem args_as_launched (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) :=
  ⟨((h c).1 0).trans (((dats 0 c).arrAt_in 0 rfl _).trans ((hA c 0).trans (entry_arg0 m c))),
    ((h c).1 1).trans (((dats 0 c).arrAt_in 1 rfl _).trans ((hA c 1).trans (entry_arg1 m c))),
    ((h c).1 2).trans (((dats 0 c).arrAt_in 2 rfl _).trans ((hA c 2).trans (entry_arg2 m c))),
    ((h c).2 main_arg3 (Pipeline.mem_restRefs_of main_arg3 (by decide) (by decide))).trans (entry_arg3 m c),
    ((h c).2 main_arg4 (Pipeline.mem_restRefs_of main_arg4 (by decide) (by decide))).trans (entry_arg4 m c),
    ((h c).2 main_arg5 (Pipeline.mem_restRefs_of main_arg5 (by decide) (by decide))).trans (entry_arg5 m c),
    ((h c).2 main_arg6 (Pipeline.mem_restRefs_of main_arg6 (by decide) (by decide))).trans (entry_arg6 m c),
    ((h c).2 main_arg7 (Pipeline.mem_restRefs_of main_arg7 (by decide) (by decide))).trans (entry_arg7 m c),
    ((h c).2 main_arg8 (Pipeline.mem_restRefs_of main_arg8 (by decide) (by decide))).trans (entry_arg8 m c),
    ((h c).2 main_arg9 (Pipeline.mem_restRefs_of main_arg9 (by decide) (by decide))).trans (entry_arg9 m c),
    ((h c).2 main_arg10 (Pipeline.mem_restRefs_of main_arg10 (by decide) (by decide))).trans (entry_arg10 m c),
    ((h c).2 main_arg11 (Pipeline.mem_restRefs_of main_arg11 (by decide) (by decide))).trans (entry_arg11 m c),
    ((h c).2 main_arg12 (Pipeline.mem_restRefs_of main_arg12 (by decide) (by decide))).trans (entry_arg12 m c)⟩

/-- So a run to that post is a run after which every argument array is as launched. -/
theorem frame_from_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => args_as_launched m dats hA r h c) h

/-! ## The staging memrefs the body is called with -/

/-- One staging buffer of each result window, through which its contents are stated. -/
abbrev hiddenView : View sig .tc .vmem S4096x128 .f32 := (Memref.whole cc0_stg7_0 : Memref sig .tc .vmem S4096x128 .f32).view
abbrev cellView : View sig .tc .vmem S4096x128 .f32 := (Memref.whole cc0_stg8_0 : Memref sig .tc .vmem S4096x128 .f32).view

abbrev mem0 (t : Fin cfg0.N) := win0_0.stage (cfg0.slots t 0)
abbrev whole0 (t : Fin cfg0.N) : (mem0 t).IsWhole := hstage0_0 ((cfg0.slots t 0).cast nbuf0_0)
abbrev mem1 (t : Fin cfg0.N) := win0_1.stage (cfg0.slots t 1)
abbrev whole1 (t : Fin cfg0.N) : (mem1 t).IsWhole := hstage0_1 ((cfg0.slots t 1).cast nbuf0_1)
abbrev mem2 (t : Fin cfg0.N) := win0_2.stage (cfg0.slots t 2)
abbrev whole2 (t : Fin cfg0.N) : (mem2 t).IsWhole := hstage0_2 ((cfg0.slots t 2).cast nbuf0_2)
abbrev mem3 (t : Fin cfg0.N) := win0_3.stage (cfg0.slots t 3)
abbrev whole3 (t : Fin cfg0.N) : (mem3 t).IsWhole := hstage0_3 ((cfg0.slots t 3).cast nbuf0_3)
abbrev mem4 (t : Fin cfg0.N) := win0_4.stage (cfg0.slots t 4)
abbrev whole4 (t : Fin cfg0.N) : (mem4 t).IsWhole := hstage0_4 ((cfg0.slots t 4).cast nbuf0_4)
abbrev mem5 (t : Fin cfg0.N) := win0_5.stage (cfg0.slots t 5)
abbrev whole5 (t : Fin cfg0.N) : (mem5 t).IsWhole := hstage0_5 ((cfg0.slots t 5).cast nbuf0_5)
abbrev mem6 (t : Fin cfg0.N) := win0_6.stage (cfg0.slots t 6)
abbrev whole6 (t : Fin cfg0.N) : (mem6 t).IsWhole := hstage0_6 ((cfg0.slots t 6).cast nbuf0_6)
abbrev mem7 (t : Fin cfg0.N) := win0_7.stage (cfg0.slots t 7)
abbrev whole7 (t : Fin cfg0.N) : (mem7 t).IsWhole := hstage0_7 ((cfg0.slots t 7).cast nbuf0_7)
abbrev mem8 (t : Fin cfg0.N) := win0_8.stage (cfg0.slots t 8)
abbrev whole8 (t : Fin cfg0.N) : (mem8 t).IsWhole := hstage0_8 ((cfg0.slots t 8).cast nbuf0_8)

end Cert.KernelIdeal.Region

end
-- ==== Proof.IdealBody.lean ====
/-
  The body of `KernelIdeal`'s kernel run once, on any whole staging memrefs, for every float instance.

  The body reads the four resident operands whole (fused weights, fused bias row, output projection, its bias row)
  and then makes four trips; trip `k` reads rows `1024 k … 1024 k + 1023` of the three batch blocks and writes the
  same rows of the two result blocks. Given the seven input buffers at their contents and the two result buffers at
  anything, it runs to the end leaving the inputs as they were and each result buffer with the trips' pieces written
  into it; which pieces is what the run itself finds, trip by trip through the loop's invariant.
-/
import proofs.«123726_j30142080483674_2_alg».proof.Proof.IdealEntry

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body leaves in the hidden-state block and in the cell-state block (last first), with the proof
    that it runs: inputs held at their contents and returned so, each result buffer held at anything and returned
    with its pieces written. -/
noncomputable def bodyRun (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole)
    (x0 : Vec F S4096x128 .f32) (x1 : Vec F S4096x128 .f32) (x2 : Vec F S4096x128 .f32) (x3 : Vec F S256x512 .bf16) (x4 : Vec F S1x512 .f32) (x5 : Vec F S128x128 .bf16) (x6 : Vec F S1x128 .f32) :
    Σ' (Lh : List (View.Piece (Elt F) S4096x128 .f32)), { Lc : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f Lh)
                ∗ (∃ f, arg9.view.loc (c : Thread nD τ) ↦[arg9.view.set]{fullShare} arg9.view.writes (Elt F) f Lc)) -∗ K ⟨⟩))
          ⊢ wp frame (wpE (defs₀ (F := F)) Variants.none c none) E (cc0__lstm_kernel i arg1 harg1 arg2 harg2 arg3 harg3 arg4 harg4 arg5 harg5 arg6 harg6 arg7 harg7 arg8 harg8 arg9 harg9) K } := by
  refine ⟨?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact H8

end Cert.KernelIdeal.Region

end
-- ==== Proof.IdealFrame.lean ====
/-
  The frame of `KernelIdeal`: its run through the launch library, for every float instance.

  The two result blocks after the body are the trips' pieces read back; four pieces of 1024 rows tile a block of
  4096 rows, so the read-back does not depend on what the buffer held before. The proof data says: every array is
  as the region found it; after the body at a point every input's buffer still holds its block and the two result
  buffers hold those read-backs. The body's obligation at a generic point is then the body's run; the launch
  library turns it into a run of @main, and the argument arrays end as launched.
-/
import proofs.«123726_j30142080483674_2_alg».proof.Proof.IdealBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result blocks after the body -/

/-- The four trips' pieces tile the hidden-state block, so they cover it. -/
theorem cover_hidden (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole)
    (x0 : Vec F S4096x128 .f32) (x1 : Vec F S4096x128 .f32) (x2 : Vec F S4096x128 .f32) (x3 : Vec F S256x512 .bf16) (x4 : Vec F S1x512 .f32) (x5 : Vec F S128x128 .bf16) (x6 : Vec F S1x128 .f32) (y : S4096x128.Idx) :
    ∃ pc ∈ (bodyRun c i arg1 harg1 arg2 harg2 arg3 harg3 arg4 harg4 arg5 harg5 arg6 harg6 arg7 harg7 arg8 harg8 arg9 harg9 x0 x1 x2 x3 x4 x5 x6).1, y ∈ pc.1.set :=
  View.cover_of_tiledL (bodyRun c i arg1 harg1 arg2 harg2 arg3 harg3 arg4 harg4 arg5 harg5 arg6 harg6 arg7 harg7 arg8 harg8 arg9 harg9 x0 x1 x2 x3 x4 x5 x6).1 S1024x128.size (by sl_kernel_rfl) y

/-- The four trips' pieces tile the cell-state block, so they cover it. -/
theorem cover_cell (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole)
    (x0 : Vec F S4096x128 .f32) (x1 : Vec F S4096x128 .f32) (x2 : Vec F S4096x128 .f32) (x3 : Vec F S256x512 .bf16) (x4 : Vec F S1x512 .f32) (x5 : Vec F S128x128 .bf16) (x6 : Vec F S1x128 .f32) (y : S4096x128.Idx) :
    ∃ pc ∈ (bodyRun c i arg1 harg1 arg2 harg2 arg3 harg3 arg4 harg4 arg5 harg5 arg6 harg6 arg7 harg7 arg8 harg8 arg9 harg9 x0 x1 x2 x3 x4 x5 x6).2.1, y ∈ pc.1.set :=
  View.cover_of_tiledL (bodyRun c i arg1 harg1 arg2 harg2 arg3 harg3 arg4 harg4 arg5 harg5 arg6 harg6 arg7 harg7 arg8 harg8 arg9 harg9 x0 x1 x2 x3 x4 x5 x6).2.1 S1024x128.size (by sl_kernel_rfl) y

/-- What the body leaves in the hidden-state block: its pieces read back. -/
def hiddenOut (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole)
    (x0 : Vec F S4096x128 .f32) (x1 : Vec F S4096x128 .f32) (x2 : Vec F S4096x128 .f32) (x3 : Vec F S256x512 .bf16) (x4 : Vec F S1x512 .f32) (x5 : Vec F S128x128 .bf16) (x6 : Vec F S1x128 .f32) : Vec F S4096x128 .f32 :=
  hiddenView.read (Elt F) (hiddenView.writes (Elt F) hiddenView.junk (bodyRun c i arg1 harg1 arg2 harg2 arg3 harg3 arg4 harg4 arg5 harg5 arg6 harg6 arg7 harg7 arg8 harg8 arg9 harg9 x0 x1 x2 x3 x4 x5 x6).1)

/-- What the body leaves in the cell-state block: its pieces read back. -/
def cellOut (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole)
    (x0 : Vec F S4096x128 .f32) (x1 : Vec F S4096x128 .f32) (x2 : Vec F S4096x128 .f32) (x3 : Vec F S256x512 .bf16) (x4 : Vec F S1x512 .f32) (x5 : Vec F S128x128 .bf16) (x6 : Vec F S1x128 .f32) : Vec F S4096x128 .f32 :=
  cellView.read (Elt F) (cellView.writes (Elt F) cellView.junk (bodyRun c i arg1 harg1 arg2 harg2 arg3 harg3 arg4 harg4 arg5 harg5 arg6 harg6 arg7 harg7 arg8 harg8 arg9 harg9 x0 x1 x2 x3 x4 x5 x6).2.1)

/-- The two result blocks after the body at point `t`: the run's, at the point's memrefs and input blocks. -/
def hiddenAt (c : Dev nD) (t : Fin cfg0.N) : Vec F S4096x128 .f32 :=
  hiddenOut c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (blockAt m c 0 t) (blockAt m c 1 t) (blockAt m c 2 t) (blockAt m c 3 t) (blockAt m c 4 t) (blockAt m c 5 t) (blockAt m c 6 t)
def cellAt (c : Dev nD) (t : Fin cfg0.N) : Vec F S4096x128 .f32 :=
  cellOut c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (blockAt m c 0 t) (blockAt m c 1 t) (blockAt m c 2 t) (blockAt m c 3 t) (blockAt m c 4 t) (blockAt m c 5 t) (blockAt m c 6 t)

/-! ## The proof data -/

/-- On core `c`: the arrays as the region finds them; after the body at point `t` each input's buffer at its
    block, the two results' at what the body leaves; the region's invariant the scoped rest and the generator
    register; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => hiddenAt m c t
    | ⟨8, _⟩ => cellAt m c t
  Φ _ := Pipeline.ΦA spec0 c
  q _ := fullShare
  owed _ := 0

theorem arrays_at_entry (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = hiddenAt m c t := by dsimp only [dats]
theorem after_8 (c : Dev nD) (t : Fin cfg0.N) : (dats m 0 c).after 8 t = cellAt m c t := by dsimp only [dats]

theorem before_0 (c : Dev nD) (t : Fin cfg0.N) (d) : (dats m 0 c).before 0 t d = blockAt m c 0 t :=
  input_in_place_0 m (dats m 0 c) (arrays_at_entry m c 0) (after_0 m c) t d
theorem before_1 (c : Dev nD) (t : Fin cfg0.N) (d) : (dats m 0 c).before 1 t d = blockAt m c 1 t :=
  input_in_place_1 m (dats m 0 c) (arrays_at_entry m c 1) (after_1 m c) t d
theorem before_2 (c : Dev nD) (t : Fin cfg0.N) (d) : (dats m 0 c).before 2 t d = blockAt m c 2 t :=
  input_in_place_2 m (dats m 0 c) (arrays_at_entry m c 2) (after_2 m c) t d
theorem before_3 (c : Dev nD) (t : Fin cfg0.N) (d) : (dats m 0 c).before 3 t d = blockAt m c 3 t :=
  input_in_place_3 m (dats m 0 c) (arrays_at_entry m c 3) (after_3 m c) t d
theorem before_4 (c : Dev nD) (t : Fin cfg0.N) (d) : (dats m 0 c).before 4 t d = blockAt m c 4 t :=
  input_in_place_4 m (dats m 0 c) (arrays_at_entry m c 4) (after_4 m c) t d
theorem before_5 (c : Dev nD) (t : Fin cfg0.N) (d) : (dats m 0 c).before 5 t d = blockAt m c 5 t :=
  input_in_place_5 m (dats m 0 c) (arrays_at_entry m c 5) (after_5 m c) t d
theorem before_6 (c : Dev nD) (t : Fin cfg0.N) (d) : (dats m 0 c).before 6 t d = blockAt m c 6 t :=
  input_in_place_6 m (dats m 0 c) (arrays_at_entry m c 6) (after_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ owns (c : Thread nD τ) (mem8 t) fullShare ((dats m 0 c).after 8 t))

set_option maxHeartbeats 1000000 in
/-- The body at any point: the inputs' buffers hold their blocks, so the run applies; the invariant passes through
    unread; the core owes nothing throughout; the result buffers end at the pieces read back, whatever they held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  unfold hiddenAt cellAt
  unfold hiddenOut cellOut
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((bodyRun c (grid0.coords t) _ _ _ _ _ _ _ _ _ _ _ _ _ _ _ _ _ _ (blockAt m c 0 t) (blockAt m c 1 t) (blockAt m c 2 t) (blockAt m c 3 t) (blockAt m c 4 t) (blockAt m c 5 t) (blockAt m c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover_hidden c _ _ _ _ _ _ _ _ _ _ _ _ _ _ _ _ _ _ _ _ _ _ _ _ _ _)
  unfold owns; iexists _; isplitr
  swap; · iexact H8
  ipureintro; exact View.read_writes_of_cover _ _ _ _ _ (cover_cell c _ _ _ _ _ _ _ _ _ _ _ _ _ _ _ _ _ _ _ _ _ _ _ _ _ _)

/-- The launch library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the
    pipeline at what the launch library computes from the proof data and every other unscoped buffer as the
    region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_region m Variants.none) (hA := arrays_at_entry m) (hΦ := fun _ _ => rfl)

/-- The frame: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_from_run m ρ (dats m) (arrays_at_entry m) (run_main m ρ)

end Cert.KernelIdeal.Region

end
-- ==== Proof.LstmSpec.lean ====
/-
  The mathematics of one LSTM cell row, stated once over the extended reals and over abstract row data, so that
  the jnp reference and the tiled kernel can each be shown to compute it.

  A row of the batch has an input row `x`, a hidden row `h` and a cell row `c`, each of 128 entries. The joined row
  `s = [x | h]` has 256 entries. The four gates share ONE fused weight matrix `W` (256 by 512) and one fused bias
  `b` (512 entries): gate `g` (forget, input, candidate, output, in that order) owns lanes `128 g … 128 g + 127`.
  The pre-activation at lane `n` is `(∑ k, s k · W k n) + b n`. Then
    c' j = σ(pre (forget j)) · c j + σ(pre (input j)) · tanh(pre (candidate j))
    h' j = σ(pre (output j)) · tanh((∑ k, c' k · U k j) + d j)
  with `σ x = 1 / (1 + e^(-x))` and `U`, `d` the 128 by 128 output projection and its bias.

  Sums are finite sums in the commutative monoid of extended reals under addition, so their order and grouping
  never matter; no law that needs finiteness (distributivity, cancellation) is used anywhere.
-/
import Idealize.ShloMosaic.PureOps.Ideal
import Idealize.ShloMosaic.Lib.ValueIdx

noncomputable section

namespace Cert.LstmSpec

open Idealize.ShloMosaic Idealize.ShloMosaic.ValueIdx
open scoped BigOperators

/-- Lane `j` of gate `g` in the fused 512-wide row: `128 g + j`. -/
def lane (g : Fin 4) (j : Fin 128) : Fin 512 := ⟨128 * g.val + j.val, by have := g.isLt; have := j.isLt; omega⟩

theorem lane_val (g : Fin 4) (j : Fin 128) : (lane g j).val = 128 * g.val + j.val := rfl

/-- The joined row `[x | h]`: entry `k` is `x k` below 128 and `h (k - 128)` from 128 on. -/
def joined (xr hr : Fin 128 → EReal) (k : Fin 256) : EReal :=
  if h : k.val < 128 then xr ⟨k.val, h⟩ else hr ⟨k.val - 128, by have := k.isLt; omega⟩

theorem joined_lt (xr hr : Fin 128 → EReal) (k : Fin 256) (h : k.val < 128) : joined xr hr k = xr ⟨k.val, h⟩ := by
  unfold joined; rw [dif_pos h]

theorem joined_ge (xr hr : Fin 128 → EReal) (k : Fin 256) (h : 128 ≤ k.val) :
    joined xr hr k = hr ⟨k.val - 128, by have := k.isLt; omega⟩ := by
  unfold joined; rw [dif_neg (Nat.not_lt.2 h)]

/-- The fused pre-activation at lane `n`: the joined row against column `n` of the fused weights, plus the bias. -/
def gate (s : Fin 256 → EReal) (W : Fin 256 → Fin 512 → EReal) (b : Fin 512 → EReal) (n : Fin 512) : EReal :=
  (∑ k : Fin 256, s k * W k n) + b n

/-- The new cell entry `c' j`. -/
def cellNew (s : Fin 256 → EReal) (W : Fin 256 → Fin 512 → EReal) (b : Fin 512 → EReal) (cr : Fin 128 → EReal)
    (j : Fin 128) : EReal :=
  Ideal.logistic (gate s W b (lane 0 j)) * cr j
    + Ideal.logistic (gate s W b (lane 1 j)) * Ideal.tanh (gate s W b (lane 2 j))

/-- The new hidden entry `h' j`: the output gate times `tanh` of the new cell row projected through `U`, plus `d`. -/
def hiddenNew (s : Fin 256 → EReal) (W : Fin 256 → Fin 512 → EReal) (b : Fin 512 → EReal) (cr : Fin 128 → EReal)
    (U : Fin 128 → Fin 128 → EReal) (d : Fin 128 → EReal) (j : Fin 128) : EReal :=
  Ideal.logistic (gate s W b (lane 3 j))
    * Ideal.tanh ((∑ k : Fin 128, cellNew s W b cr k * U k j) + d j)

/-! ## The same, over whole arrays

The batch has 262144 rows. `Wg` is the fused weight array and `bg` the fused bias vector, whatever built them: both
programs build them by the same concatenations of the four gates' parameters, so they are never opened. -/

abbrev Rows : Shape := ⟨2, ![262144, 128]⟩
abbrev WgS : Shape := ⟨2, ![256, 512]⟩
abbrev BgS : Shape := ⟨1, ![512]⟩
abbrev UcS : Shape := ⟨2, ![128, 128]⟩
abbrev DcS : Shape := ⟨1, ![128]⟩

/-- Row `r` of a batch array. -/
def rowOf (a : Rows.Idx → EReal) (r : Fin 262144) : Fin 128 → EReal := fun j => a (ix2 r j)

/-- The joined row `r` of the batch. -/
def joinedRow (x h : Rows.Idx → EReal) (r : Fin 262144) : Fin 256 → EReal := joined (rowOf x r) (rowOf h r)

/-- The new cell array. -/
def cellArr (x h c : Rows.Idx → EReal) (Wg : WgS.Idx → EReal) (bg : BgS.Idx → EReal) : Rows.Idx → EReal :=
  fun i => cellNew (joinedRow x h (i 0)) (fun k n => Wg (ix2 k n)) (fun n => bg (ix1 n)) (rowOf c (i 0)) (i 1)

/-- The new hidden array. -/
def hiddenArr (x h c : Rows.Idx → EReal) (Wg : WgS.Idx → EReal) (bg : BgS.Idx → EReal) (U : UcS.Idx → EReal)
    (d : DcS.Idx → EReal) : Rows.Idx → EReal :=
  fun i => hiddenNew (joinedRow x h (i 0)) (fun k n => Wg (ix2 k n)) (fun n => bg (ix1 n)) (rowOf c (i 0))
    (fun k n => U (ix2 k n)) (fun n => d (ix1 n)) (i 1)

end Cert.LstmSpec

end
-- ==== Proof.KernelRow.lean ====
/-
  One row of one chunk of the tiled LSTM cell, read at an index.

  A chunk holds 1024 rows of the input `x`, the hidden state `h` and the cell state `c` (128 entries each), the fused
  gate weights `W` (256 by 512), the fused bias `b` (one row of 512), the output projection `U` (128 by 128) and its
  bias `d` (one row of 128). Over the extended reals every format change is the identity, so:

  * the fused pre-activation chunk at `(p, n)` is `(∑ k, [x | h] p k · W k n) + b n`: a matrix product into a zero
    accumulator is the plain sum over the one contracted axis, the two-piece concatenation along the lanes reads
    `x` below lane 128 and `h` from lane 128 on, and the bias row is broadcast over the rows;
  * the four gates are the four 128-lane slices of that chunk: entry `(p, j)` of the slice at lane offset `128 g`
    is entry `(p, 128 g + j)`;
  * the new cell chunk at `(p, j)` is `σ(forget) · c + σ(input) · tanh(candidate)`, and the new hidden chunk at
    `(p, j)` is `σ(output) · tanh((∑ k, c' p k · U k j) + d j)`.

  Both statements are over one row `p` of the chunk and one lane `j`, with every index written by coordinates.
-/
import proofs.«123726_j30142080483674_2_alg».proof.Proof.Gen.KernelIdeal.Skeleton
import proofs.«123726_j30142080483674_2_alg».proof.Proof.LstmSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelRow

open Idealize.ShloMosaic Idealize.ShloMosaic.ValueIdx Cert.KernelIdeal Cert.LstmSpec
open scoped BigOperators

/-! ## The pointwise transcendental operations at an index -/

/-- The logistic function of a vector, read at an index, is the logistic function of the element. -/
theorem logistic_apply {s : Shape} {φ : FTy} (a : FVec Ideal s φ) (i : s.Idx) :
    Idealize.ShloMosaic.logistic a i = Ideal.logistic (a i) := rfl

/-- The hyperbolic tangent of a vector, read at an index, is the hyperbolic tangent of the element. -/
theorem tanh_apply {s : Shape} {φ : FTy} (a : FVec Ideal s φ) (i : s.Idx) :
    Idealize.ShloMosaic.tanh a i = Ideal.tanh (a i) := rfl

/-! ## The two matrix products at an index -/

/-- The dimension numbers of the fused product: rows by 256 against 256 by 512. -/
abbrev dotW : DotDims S1024x256 S256x512 S1024x512 := dot_S1024x256_S256x512_S1024x512_1_0_0_1_n_n

/-- The dimension numbers of the output projection: rows by 128 against 128 by 128. -/
abbrev dotU : DotDims S1024x128 S128x128 S1024x128 := dot_S1024x128_S128x128_S1024x128_1_0_0_1_n_n

theorem dotW_lhs0 (i : S1024x512.Idx) (q : dotW.contr.Idx) : (dotW.lhsIdx i q 0).val = (i 0).val := by
  unfold DotDims.lhsIdx
  rw [dif_neg (show ¬(0 : Fin S1024x256.rank) ∈ dotW.lhsBatch by decide),
    dif_pos (show (0 : Fin S1024x256.rank) ∈ dotW.lhsNonContracting by decide)]
  rfl

theorem dotW_rhs1 (i : S1024x512.Idx) (q : dotW.contr.Idx) : (dotW.rhsIdx i q 1).val = (i 1).val := by
  unfold DotDims.rhsIdx
  rw [dif_neg (show ¬(1 : Fin S256x512.rank) ∈ dotW.rhsBatch by decide),
    dif_pos (show (1 : Fin S256x512.rank) ∈ dotW.rhsNonContracting by decide)]
  rfl

theorem dotU_lhs0 (i : S1024x128.Idx) (q : dotU.contr.Idx) : (dotU.lhsIdx i q 0).val = (i 0).val := by
  unfold DotDims.lhsIdx
  rw [dif_neg (show ¬(0 : Fin S1024x128.rank) ∈ dotU.lhsBatch by decide),
    dif_pos (show (0 : Fin S1024x128.rank) ∈ dotU.lhsNonContracting by decide)]
  rfl

theorem dotU_rhs1 (i : S1024x128.Idx) (q : dotU.contr.Idx) : (dotU.rhsIdx i q 1).val = (i 1).val := by
  unfold DotDims.rhsIdx
  rw [dif_neg (show ¬(1 : Fin S128x128.rank) ∈ dotU.rhsBatch by decide),
    dif_pos (show (1 : Fin S128x128.rank) ∈ dotU.rhsNonContracting by decide)]
  rfl

/-- The fused product into a zero accumulator, at `(p, n)`: the sum over the 256 joined lanes. -/
theorem matmulW_apply (L : FVec Ideal S1024x256 .bf16) (R : FVec Ideal S256x512 .bf16) (p : Fin 1024) (n : Fin 512) :
    matmul (F := Ideal) dotW none L R (constant (F := Ideal) S1024x512 .f32 0x00000000#32) (ix2 p n)
      = ∑ k : Fin 256, L (ix2 p k) * R (ix2 k n) := by
  simp only [matmul]
  rw [Ideal.matmul_constant_zero_apply, ← Equiv.sum_comp (contrEquiv1 dotW 256 rfl rfl).symm]
  refine Finset.sum_congr rfl fun k _ => ?_
  have hk := contrEquiv1_symm_val dotW 256 rfl rfl k
  have el : dotW.lhsIdx (ix2 p n) ((contrEquiv1 dotW 256 rfl rfl).symm k) = ix2 p k := funext fun a => Fin.ext (by
    match a with
    | ⟨0, _⟩ => exact dotW_lhs0 _ _
    | ⟨1, _⟩ => exact (dotW.lhsIdx_val_of_single rfl _ _).trans hk)
  have er : dotW.rhsIdx (ix2 p n) ((contrEquiv1 dotW 256 rfl rfl).symm k) = ix2 k n := funext fun a => Fin.ext (by
    match a with
    | ⟨0, _⟩ => exact (dotW.rhsIdx_val_of_single rfl _ _).trans hk
    | ⟨1, _⟩ => exact dotW_rhs1 _ _)
  rw [el, er]

/-- The output projection into a zero accumulator, at `(p, j)`: the sum over the 128 cell lanes. -/
theorem matmulU_apply (L : FVec Ideal S1024x128 .bf16) (R : FVec Ideal S128x128 .bf16) (p : Fin 1024) (j : Fin 128) :
    matmul (F := Ideal) dotU none L R (constant (F := Ideal) S1024x128 .f32 0x00000000#32) (ix2 p j)
      = ∑ k : Fin 128, L (ix2 p k) * R (ix2 k j) := by
  simp only [matmul]
  rw [Ideal.matmul_constant_zero_apply, ← Equiv.sum_comp (contrEquiv1 dotU 128 rfl rfl).symm]
  refine Finset.sum_congr rfl fun k _ => ?_
  have hk := contrEquiv1_symm_val dotU 128 rfl rfl k
  have el : dotU.lhsIdx (ix2 p j) ((contrEquiv1 dotU 128 rfl rfl).symm k) = ix2 p k := funext fun a => Fin.ext (by
    match a with
    | ⟨0, _⟩ => exact dotU_lhs0 _ _
    | ⟨1, _⟩ => exact (dotU.lhsIdx_val_of_single rfl _ _).trans hk)
  have er : dotU.rhsIdx (ix2 p j) ((contrEquiv1 dotU 128 rfl rfl).symm k) = ix2 k j := funext fun a => Fin.ext (by
    match a with
    | ⟨0, _⟩ => exact (dotU.rhsIdx_val_of_single rfl _ _).trans hk
    | ⟨1, _⟩ => exact dotU_rhs1 _ _)
  rw [el, er]

/-! ## The joined row, the gate slices and the bias row at an index -/

/-- The two-piece concatenation along the lanes, at `(p, k)`: the joined row `[x | h]` of row `p` at `k`. -/
theorem concat_apply (x h : FVec Ideal S1024x128 .f32) (p : Fin 1024) (k : Fin 256) :
    concatenate S1024x256 1 [⟨S1024x128, x⟩, ⟨S1024x128, h⟩] Gen.concatenates_S1024x128_S1024x128_S1024x256_d1 (ix2 p k)
      = joined (fun a => x (ix2 p a)) (fun a => h (ix2 p a)) k := by
  by_cases hk : k.val < 128
  · rw [joined_lt _ _ _ hk]
    exact concatenate_pair_apply_left 1 x h _ (ix2 p k) rfl (ix2 p ⟨k.val, hk⟩) (fun b => by
      match b with
      | ⟨0, _⟩ => rfl
      | ⟨1, _⟩ => rfl)
  · have hk' : 128 ≤ k.val := Nat.not_lt.1 hk
    rw [joined_ge _ _ _ hk']
    exact concatenate_pair_apply_right 1 x h _ (ix2 p k) rfl rfl
      (ix2 p ⟨k.val - 128, by have := k.isLt; omega⟩) (fun b hb => by
        match b, hb with
        | ⟨0, _⟩, _ => rfl
        | ⟨1, _⟩, hb => exact absurd rfl hb) (by
        show k.val - 128 + 128 = k.val
        omega)

/-- Gate `g`'s slice of a 512-lane chunk, at `(p, j)`: the chunk at `(p, 128 g + j)`. -/
theorem slice_lane (g : Fin 4) (X : FVec Ideal S1024x512 .f32) (h : S1024x512.Slices ![0, 128 * g.val] S1024x128)
    (p : Fin 1024) (j : Fin 128) :
    extractStridedSlice S1024x128 ![0, 128 * g.val] X h (ix2 p j) = X (ix2 p (lane g j)) :=
  slice2_axis1_apply (128 * g.val) X h p j (lane g j) (lane_val g j)

/-! ## The fused pre-activation chunk -/

/-- The fused pre-activation chunk at `(p, n)` is the gate pre-activation of row `p` at lane `n`. -/
theorem pay_gate (v0 : Vec Ideal S256x512 .bf16) (v2 : Vec Ideal S1x512 .f32) (v12 v14 : Vec Ideal S1024x128 .f32)
    (p : Fin 1024) (n : Fin 512) :
    Gen.k0_pay1 (F := Ideal) v0 v2 v12 v14 (ix2 p n)
      = gate (joined (fun a => v12 (ix2 p a)) (fun a => v14 (ix2 p a))) (fun k n => v0 (ix2 k n))
          (fun n => v2 (ix2 0 n)) n := by
  unfold Gen.k0_pay1 gate
  simp only []
  rw [shapeCast_self, shapeCast_self, addf_apply]
  refine congrArg₂ (· + ·) ?_ ?_
  · refine (matmulW_apply _ _ p n).trans ?_
    refine Finset.sum_congr rfl fun k _ => ?_
    rw [truncf_apply, concat_apply]
  · exact broadcastTo_1b_ab_apply v2 _ p n

/-! ## The new cell chunk and the new hidden chunk -/

/-- The new cell chunk at `(p, j)` is the new cell entry `j` of row `p`. -/
theorem pay_cell (v0 : Vec Ideal S256x512 .bf16) (v2 : Vec Ideal S1x512 .f32) (v12 v14 v16 : Vec Ideal S1024x128 .f32)
    (p : Fin 1024) (j : Fin 128) :
    Cert.KernelIdeal.Gen.k0_pay2 (F := Ideal) v0 v2 v12 v14 v16 (ix2 p j)
      = Cert.LstmSpec.cellNew (Cert.LstmSpec.joined (fun a => v12 (ix2 p a)) (fun a => v14 (ix2 p a)))
          (fun k n => v0 (ix2 k n)) (fun n => v2 (ix2 0 n)) (fun a => v16 (ix2 p a)) j := by
  unfold Gen.k0_pay2 cellNew
  simp only []
  rw [addf_apply, mulf_apply, mulf_apply, logistic_apply, logistic_apply, tanh_apply]
  have e0 := (slice_lane 0 (Gen.k0_pay1 (F := Ideal) v0 v2 v12 v14) Gen.slices_S1024x512_o0_0_S1024x128 p j).trans
    (pay_gate v0 v2 v12 v14 p (lane 0 j))
  have e1 := (slice_lane 1 (Gen.k0_pay1 (F := Ideal) v0 v2 v12 v14) Gen.slices_S1024x512_o0_128_S1024x128 p j).trans
    (pay_gate v0 v2 v12 v14 p (lane 1 j))
  have e2 := (slice_lane 2 (Gen.k0_pay1 (F := Ideal) v0 v2 v12 v14) Gen.slices_S1024x512_o0_256_S1024x128 p j).trans
    (pay_gate v0 v2 v12 v14 p (lane 2 j))
  exact congrArg₂ (· + ·) (congrArg (Ideal.logistic · * v16 (ix2 p j)) e0)
    (congrArg₂ (fun a b => Ideal.logistic a * Ideal.tanh b) e1 e2)

/-- The new hidden chunk at `(p, j)` is the new hidden entry `j` of row `p`. -/
theorem pay_hidden (v0 : Vec Ideal S256x512 .bf16) (v2 : Vec Ideal S1x512 .f32) (v4 : Vec Ideal S128x128 .bf16)
    (v6 : Vec Ideal S1x128 .f32) (v12 v14 v16 : Vec Ideal S1024x128 .f32) (p : Fin 1024) (j : Fin 128) :
    Cert.KernelIdeal.Gen.k0_pay3 (F := Ideal) v0 v2 v4 v6 v12 v14 v16 (ix2 p j)
      = Cert.LstmSpec.hiddenNew (Cert.LstmSpec.joined (fun a => v12 (ix2 p a)) (fun a => v14 (ix2 p a)))
          (fun k n => v0 (ix2 k n)) (fun n => v2 (ix2 0 n)) (fun a => v16 (ix2 p a))
          (fun k n => v4 (ix2 k n)) (fun n => v6 (ix2 0 n)) j := by
  unfold Gen.k0_pay3 hiddenNew
  simp only []
  rw [shapeCast_self, shapeCast_self, mulf_apply, logistic_apply, tanh_apply, addf_apply]
  have e3 := (slice_lane 3 (Gen.k0_pay1 (F := Ideal) v0 v2 v12 v14) Gen.slices_S1024x512_o0_384_S1024x128 p j).trans
    (pay_gate v0 v2 v12 v14 p (lane 3 j))
  refine congrArg₂ (fun a b => Ideal.logistic a * Ideal.tanh b) e3 (congrArg₂ (· + ·) ?_ ?_)
  · refine (matmulU_apply _ _ p j).trans ?_
    refine Finset.sum_congr rfl fun k _ => ?_
    rw [truncf_apply, pay_cell]
  · exact broadcastTo_1b_ab_apply v6 _ p j

end Cert.KernelRow

end
-- ==== Proof.IdealBlocks.lean ====
/-
  What the idealized kernel's body leaves in its two result blocks, as functions of the input blocks.

  Trip `k` of the body writes rows `1024 k … 1024 k + 1023` of each result block, and the value it writes at row
  `p` of the chunk is one LSTM row computed from row `1024 k + p` of the three batch blocks and the resident
  operands. So every piece the four trips write agrees with ONE function of the block index: at row `r`, lane `j`
  of a block, the new hidden (or cell) entry `j` of the LSTM row built from row `r` of the block of `x`, of `h` and of
  `c`. The pieces cover the block, hence the block read back is that function.
-/
import proofs.«123726_j30142080483674_2_alg».proof.Proof.IdealFrame
import proofs.«123726_j30142080483674_2_alg».proof.Proof.KernelRow
import proofs.«123726_j30142080483674_2_alg».proof.Proof.LstmSpec
import Idealize.ShloMosaic.Lib.Pipeline.Value
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem

/-! ## The block functions -/

/-- Entry `(r, j)` of the new cell block: the LSTM row built from row `r` of the blocks of `x`, `h`, `c`. -/
def cellBlk (x0 x1 x2 : Vec Ideal S4096x128 .f32) (x3 : Vec Ideal S256x512 .bf16) (x4 : Vec Ideal S1x512 .f32) : Vec Ideal S4096x128 .f32 :=
  fun y => Cert.LstmSpec.cellNew (Cert.LstmSpec.joined (fun a => x0 (ix2 (y 0) a)) (fun a => x1 (ix2 (y 0) a)))
    (fun k n => x3 (ix2 k n)) (fun n => x4 (ix2 0 n)) (fun a => x2 (ix2 (y 0) a)) (y 1)

/-- Entry `(r, j)` of the new hidden block. -/
def hiddenBlk (x0 x1 x2 : Vec Ideal S4096x128 .f32) (x3 : Vec Ideal S256x512 .bf16) (x4 : Vec Ideal S1x512 .f32)
    (x5 : Vec Ideal S128x128 .bf16) (x6 : Vec Ideal S1x128 .f32) : Vec Ideal S4096x128 .f32 :=
  fun y => Cert.LstmSpec.hiddenNew (Cert.LstmSpec.joined (fun a => x0 (ix2 (y 0) a)) (fun a => x1 (ix2 (y 0) a)))
    (fun k n => x3 (ix2 k n)) (fun n => x4 (ix2 0 n)) (fun a => x2 (ix2 (y 0) a)) (fun k n => x5 (ix2 k n)) (fun n => x6 (ix2 0 n)) (y 1)

/-! ## One trip's pieces -/

/-- Trip `k` writes ONE piece into the hidden block: rows `1024 k …`, the hidden chunk of the rows it read. -/
theorem trip_hidden (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole) (v0 : Vec Ideal S256x512 .bf16) (v2 : Vec Ideal S1x512 .f32) (v4 : Vec Ideal S128x128 .bf16) (v6 : Vec Ideal S1x128 .f32) (X1 : BufTy.Contents (Elt Ideal) arg1.view.ty) (X2 : BufTy.Contents (Elt Ideal) arg2.view.ty) (X3 : BufTy.Contents (Elt Ideal) arg3.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 v0 v2 v4 v6 X1 X2 X3 k).1
      = [⟨(Rect.unit (s := S4096x128) (k0_off1 k) S1024x128.size (k0_off1_inb k)), k0_pay3 v0 v2 v4 v6 (View.readAt (Elt Ideal) arg1.view (Rect.unit (s := S4096x128) (k0_off1 k) S1024x128.size (k0_off1_inb k)).toLoadRect X1) (View.readAt (Elt Ideal) arg2.view (Rect.unit (s := S4096x128) (k0_off1 k) S1024x128.size (k0_off1_inb k)).toLoadRect X2) (View.readAt (Elt Ideal) arg3.view (Rect.unit (s := S4096x128) (k0_off1 k) S1024x128.size (k0_off1_inb k)).toLoadRect X3)⟩] := by
  unfold trip_k0_t1; rfl

/-- and ONE piece into the cell block: the same rows, the cell chunk. -/
theorem trip_cell (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole) (v0 : Vec Ideal S256x512 .bf16) (v2 : Vec Ideal S1x512 .f32) (v4 : Vec Ideal S128x128 .bf16) (v6 : Vec Ideal S1x128 .f32) (X1 : BufTy.Contents (Elt Ideal) arg1.view.ty) (X2 : BufTy.Contents (Elt Ideal) arg2.view.ty) (X3 : BufTy.Contents (Elt Ideal) arg3.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 v0 v2 v4 v6 X1 X2 X3 k).2.1
      = [⟨(Rect.unit (s := S4096x128) (k0_off1 k) S1024x128.size (k0_off1_inb k)), k0_pay2 v0 v2 (View.readAt (Elt Ideal) arg1.view (Rect.unit (s := S4096x128) (k0_off1 k) S1024x128.size (k0_off1_inb k)).toLoadRect X1) (View.readAt (Elt Ideal) arg2.view (Rect.unit (s := S4096x128) (k0_off1 k) S1024x128.size (k0_off1_inb k)).toLoadRect X2) (View.readAt (Elt Ideal) arg3.view (Rect.unit (s := S4096x128) (k0_off1 k) S1024x128.size (k0_off1_inb k)).toLoadRect X3)⟩] := by
  unfold trip_k0_t1; rfl

/-- The chunk's columns start at column 0 of the block. -/
theorem off_col (k : Fin k0_t1_loop.trips) : k0_off1 k 1 = 0 := by rw [k0_off1_eq]; rfl

/-- Row `p` of the chunk read through trip `k`'s rectangle is row `1024 k + p` of the block: the row the
    rectangle's own embedding names. -/
theorem chunk_row (k : Fin k0_t1_loop.trips) (X : Vec Ideal S4096x128 .f32) (p : Fin 1024) (j a : Fin 128) :
    View.ld X (Rect.unit (s := S4096x128) (k0_off1 k) S1024x128.size (k0_off1_inb k)) (ix2 p a) = X (ix2 ((Rect.unit (s := S4096x128) (k0_off1 k) S1024x128.size (k0_off1_inb k)).emb (ix2 p j) 0) a) := by
  show X ((Rect.unit (s := S4096x128) (k0_off1 k) S1024x128.size (k0_off1_inb k)).idx (ix2 p a)) = _
  congr 1
  funext d
  apply Fin.ext
  match d with
  | ⟨0, _⟩ => rfl
  | ⟨1, _⟩ =>
    have h := off_col k
    show k0_off1 k 1 + 1 * a.val = a.val
    omega

theorem chunk_col (k : Fin k0_t1_loop.trips) (p : Fin 1024) (j : Fin 128) : ((Rect.unit (s := S4096x128) (k0_off1 k) S1024x128.size (k0_off1_inb k)).emb (ix2 p j) 1 : Fin 128) = j := by
  apply Fin.ext
  have h := off_col k
  show k0_off1 k 1 + 1 * j.val = j.val
  omega

/-- The hidden piece of trip `k` agrees with the block function where it lies. -/
theorem hidden_piece (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole) (v0 : Vec Ideal S256x512 .bf16) (v2 : Vec Ideal S1x512 .f32) (v4 : Vec Ideal S128x128 .bf16) (v6 : Vec Ideal S1x128 .f32) (X1 : BufTy.Contents (Elt Ideal) arg1.view.ty) (X2 : BufTy.Contents (Elt Ideal) arg2.view.ty) (X3 : BufTy.Contents (Elt Ideal) arg3.view.ty) (k : Fin k0_t1_loop.trips)
    (x : (Rect.unit (s := S4096x128) (k0_off1 k) S1024x128.size (k0_off1_inb k)).shape.Idx) :
    k0_pay3 (F := Ideal) v0 v2 v4 v6 (View.readAt (Elt Ideal) arg1.view (Rect.unit (s := S4096x128) (k0_off1 k) S1024x128.size (k0_off1_inb k)).toLoadRect X1) (View.readAt (Elt Ideal) arg2.view (Rect.unit (s := S4096x128) (k0_off1 k) S1024x128.size (k0_off1_inb k)).toLoadRect X2) (View.readAt (Elt Ideal) arg3.view (Rect.unit (s := S4096x128) (k0_off1 k) S1024x128.size (k0_off1_inb k)).toLoadRect X3) x
      = hiddenBlk (arg1.view.read (Elt Ideal) X1) (arg2.view.read (Elt Ideal) X2) (arg3.view.read (Elt Ideal) X3) v0 v2 v4 v6 ((Rect.unit (s := S4096x128) (k0_off1 k) S1024x128.size (k0_off1_inb k)).emb x) := by
  obtain ⟨p, j, rfl⟩ : ∃ (p : Fin 1024) (j : Fin 128), x = ix2 p j := ⟨x 0, x 1, eq_ix2 x⟩
  refine (Cert.KernelRow.pay_hidden v0 v2 v4 v6 _ _ _ p j).trans ?_
  unfold hiddenBlk
  have e1 : (fun a : Fin 128 => (View.readAt (Elt Ideal) arg1.view (Rect.unit (s := S4096x128) (k0_off1 k) S1024x128.size (k0_off1_inb k)).toLoadRect X1) (ix2 p a)) = fun a => arg1.view.read (Elt Ideal) X1 (ix2 ((Rect.unit (s := S4096x128) (k0_off1 k) S1024x128.size (k0_off1_inb k)).emb (ix2 p j) 0) a) :=
    funext fun a => chunk_row k _ p j a
  have e2 : (fun a : Fin 128 => (View.readAt (Elt Ideal) arg2.view (Rect.unit (s := S4096x128) (k0_off1 k) S1024x128.size (k0_off1_inb k)).toLoadRect X2) (ix2 p a)) = fun a => arg2.view.read (Elt Ideal) X2 (ix2 ((Rect.unit (s := S4096x128) (k0_off1 k) S1024x128.size (k0_off1_inb k)).emb (ix2 p j) 0) a) :=
    funext fun a => chunk_row k _ p j a
  have e3 : (fun a : Fin 128 => (View.readAt (Elt Ideal) arg3.view (Rect.unit (s := S4096x128) (k0_off1 k) S1024x128.size (k0_off1_inb k)).toLoadRect X3) (ix2 p a)) = fun a => arg3.view.read (Elt Ideal) X3 (ix2 ((Rect.unit (s := S4096x128) (k0_off1 k) S1024x128.size (k0_off1_inb k)).emb (ix2 p j) 0) a) :=
    funext fun a => chunk_row k _ p j a
  rw [e1, e2, e3, chunk_col k p j]

/-- The cell piece of trip `k` agrees with the block function where it lies. -/
theorem cell_piece (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole) (v0 : Vec Ideal S256x512 .bf16) (v2 : Vec Ideal S1x512 .f32) (v4 : Vec Ideal S128x128 .bf16) (v6 : Vec Ideal S1x128 .f32) (X1 : BufTy.Contents (Elt Ideal) arg1.view.ty) (X2 : BufTy.Contents (Elt Ideal) arg2.view.ty) (X3 : BufTy.Contents (Elt Ideal) arg3.view.ty) (k : Fin k0_t1_loop.trips)
    (x : (Rect.unit (s := S4096x128) (k0_off1 k) S1024x128.size (k0_off1_inb k)).shape.Idx) :
    k0_pay2 (F := Ideal) v0 v2 (View.readAt (Elt Ideal) arg1.view (Rect.unit (s := S4096x128) (k0_off1 k) S1024x128.size (k0_off1_inb k)).toLoadRect X1) (View.readAt (Elt Ideal) arg2.view (Rect.unit (s := S4096x128) (k0_off1 k) S1024x128.size (k0_off1_inb k)).toLoadRect X2) (View.readAt (Elt Ideal) arg3.view (Rect.unit (s := S4096x128) (k0_off1 k) S1024x128.size (k0_off1_inb k)).toLoadRect X3) x
      = cellBlk (arg1.view.read (Elt Ideal) X1) (arg2.view.read (Elt Ideal) X2) (arg3.view.read (Elt Ideal) X3) v0 v2 ((Rect.unit (s := S4096x128) (k0_off1 k) S1024x128.size (k0_off1_inb k)).emb x) := by
  obtain ⟨p, j, rfl⟩ : ∃ (p : Fin 1024) (j : Fin 128), x = ix2 p j := ⟨x 0, x 1, eq_ix2 x⟩
  refine (Cert.KernelRow.pay_cell v0 v2 _ _ _ p j).trans ?_
  unfold cellBlk
  have e1 : (fun a : Fin 128 => (View.readAt (Elt Ideal) arg1.view (Rect.unit (s := S4096x128) (k0_off1 k) S1024x128.size (k0_off1_inb k)).toLoadRect X1) (ix2 p a)) = fun a => arg1.view.read (Elt Ideal) X1 (ix2 ((Rect.unit (s := S4096x128) (k0_off1 k) S1024x128.size (k0_off1_inb k)).emb (ix2 p j) 0) a) :=
    funext fun a => chunk_row k _ p j a
  have e2 : (fun a : Fin 128 => (View.readAt (Elt Ideal) arg2.view (Rect.unit (s := S4096x128) (k0_off1 k) S1024x128.size (k0_off1_inb k)).toLoadRect X2) (ix2 p a)) = fun a => arg2.view.read (Elt Ideal) X2 (ix2 ((Rect.unit (s := S4096x128) (k0_off1 k) S1024x128.size (k0_off1_inb k)).emb (ix2 p j) 0) a) :=
    funext fun a => chunk_row k _ p j a
  have e3 : (fun a : Fin 128 => (View.readAt (Elt Ideal) arg3.view (Rect.unit (s := S4096x128) (k0_off1 k) S1024x128.size (k0_off1_inb k)).toLoadRect X3) (ix2 p a)) = fun a => arg3.view.read (Elt Ideal) X3 (ix2 ((Rect.unit (s := S4096x128) (k0_off1 k) S1024x128.size (k0_off1_inb k)).emb (ix2 p j) 0) a) :=
    funext fun a => chunk_row k _ p j a
  rw [e1, e2, e3, chunk_col k p j]

/-! ## All the trips' pieces -/

/-- Every piece the first `n` trips write into the hidden block agrees with the block function. -/
theorem hidden_pieces (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole) (v0 : Vec Ideal S256x512 .bf16) (v2 : Vec Ideal S1x512 .f32) (v4 : Vec Ideal S128x128 .bf16) (v6 : Vec Ideal S1x128 .f32) (X1 : BufTy.Contents (Elt Ideal) arg1.view.ty) (X2 : BufTy.Contents (Elt Ideal) arg2.view.ty) (X3 : BufTy.Contents (Elt Ideal) arg3.view.ty) :
    ∀ (n : ℕ) (p : View.Piece (Elt Ideal) S4096x128 .f32), p ∈ (pb_k0_t1 (F := Ideal) 𝒱 c bd i arg1 harg1 arg2 harg2 arg3 harg3 arg4 harg4 arg5 harg5 arg6 harg6 arg7 harg7 arg8 harg8 arg9 harg9 v0 v2 v4 v6 X1 X2 X3 n).1 →
      ∀ x : p.1.shape.Idx, p.2 x = hiddenBlk (arg1.view.read (Elt Ideal) X1) (arg2.view.read (Elt Ideal) X2) (arg3.view.read (Elt Ideal) X3) v0 v2 v4 v6 (p.1.emb x)
  | 0, p, hp => absurd hp (by rw [pb_k0_t1]; exact List.not_mem_nil)
  | n + 1, p, hp => by
    intro x
    rw [pb_k0_t1] at hp
    unfold pb_k0_t1Step at hp
    split at hp
    · next h =>
      dsimp only [tripL_k0_t1] at hp
      rw [trip_hidden] at hp
      rcases List.mem_append.mp hp with h1 | h2
      · obtain rfl := List.mem_singleton.mp h1
        exact hidden_piece arg1 harg1 arg2 harg2 arg3 harg3 arg4 harg4 arg5 harg5 arg6 harg6 arg7 harg7 arg8 harg8 arg9 harg9 v0 v2 v4 v6 X1 X2 X3 ⟨n, h⟩ x
      · exact hidden_pieces 𝒱 c bd i arg1 harg1 arg2 harg2 arg3 harg3 arg4 harg4 arg5 harg5 arg6 harg6 arg7 harg7 arg8 harg8 arg9 harg9 v0 v2 v4 v6 X1 X2 X3 n p h2 x
    · exact hidden_pieces 𝒱 c bd i arg1 harg1 arg2 harg2 arg3 harg3 arg4 harg4 arg5 harg5 arg6 harg6 arg7 harg7 arg8 harg8 arg9 harg9 v0 v2 v4 v6 X1 X2 X3 n p hp x

/-- Every piece the first `n` trips write into the cell block agrees with the block function. -/
theorem cell_pieces (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole) (v0 : Vec Ideal S256x512 .bf16) (v2 : Vec Ideal S1x512 .f32) (v4 : Vec Ideal S128x128 .bf16) (v6 : Vec Ideal S1x128 .f32) (X1 : BufTy.Contents (Elt Ideal) arg1.view.ty) (X2 : BufTy.Contents (Elt Ideal) arg2.view.ty) (X3 : BufTy.Contents (Elt Ideal) arg3.view.ty) :
    ∀ (n : ℕ) (p : View.Piece (Elt Ideal) S4096x128 .f32), p ∈ (pb_k0_t1 (F := Ideal) 𝒱 c bd i arg1 harg1 arg2 harg2 arg3 harg3 arg4 harg4 arg5 harg5 arg6 harg6 arg7 harg7 arg8 harg8 arg9 harg9 v0 v2 v4 v6 X1 X2 X3 n).2 →
      ∀ x : p.1.shape.Idx, p.2 x = cellBlk (arg1.view.read (Elt Ideal) X1) (arg2.view.read (Elt Ideal) X2) (arg3.view.read (Elt Ideal) X3) v0 v2 (p.1.emb x)
  | 0, p, hp => absurd hp (by rw [pb_k0_t1]; exact List.not_mem_nil)
  | n + 1, p, hp => by
    intro x
    rw [pb_k0_t1] at hp
    unfold pb_k0_t1Step at hp
    split at hp
    · next h =>
      dsimp only [tripL_k0_t1] at hp
      rw [trip_cell] at hp
      rcases List.mem_append.mp hp with h1 | h2
      · obtain rfl := List.mem_singleton.mp h1
        exact cell_piece arg1 harg1 arg2 harg2 arg3 harg3 arg4 harg4 arg5 harg5 arg6 harg6 arg7 harg7 arg8 harg8 arg9 harg9 v0 v2 v4 v6 X1 X2 X3 ⟨n, h⟩ x
      · exact cell_pieces 𝒱 c bd i arg1 harg1 arg2 harg2 arg3 harg3 arg4 harg4 arg5 harg5 arg6 harg6 arg7 harg7 arg8 harg8 arg9 harg9 v0 v2 v4 v6 X1 X2 X3 n p h2 x
    · exact cell_pieces 𝒱 c bd i arg1 harg1 arg2 harg2 arg3 harg3 arg4 harg4 arg5 harg5 arg6 harg6 arg7 harg7 arg8 harg8 arg9 harg9 v0 v2 v4 v6 X1 X2 X3 n p hp x

/-! ## The blocks read back -/

/-- The resident operands are read from row 0, column 0. -/
theorem zero_off : (![0, 0] : Fin 2 → ℕ) = fun _ => 0 := by
  funext a; match a with | ⟨0, _⟩ => rfl | ⟨1, _⟩ => rfl

/-- The hidden block after the body is the block function of the input blocks. -/
theorem hiddenOut_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole) (x0 : Vec Ideal S4096x128 .f32) (x1 : Vec Ideal S4096x128 .f32) (x2 : Vec Ideal S4096x128 .f32) (x3 : Vec Ideal S256x512 .bf16) (x4 : Vec Ideal S1x512 .f32) (x5 : Vec Ideal S128x128 .bf16) (x6 : Vec Ideal S1x128 .f32) :
    hiddenOut (F := Ideal) c i arg1 harg1 arg2 harg2 arg3 harg3 arg4 harg4 arg5 harg5 arg6 harg6 arg7 harg7 arg8 harg8 arg9 harg9 x0 x1 x2 x3 x4 x5 x6 = hiddenBlk x0 x1 x2 x3 x4 x5 x6 := by
  unfold hiddenOut
  rw [View.read_writes_eq_canon _ _ _ (cover_hidden c i arg1 harg1 arg2 harg2 arg3 harg3 arg4 harg4 arg5 harg5 arg6 harg6 arg7 harg7 arg8 harg8 arg9 harg9 x0 x1 x2 x3 x4 x5 x6)]
  funext y
  have hL : (bodyRun (F := Ideal) c i arg1 harg1 arg2 harg2 arg3 harg3 arg4 harg4 arg5 harg5 arg6 harg6 arg7 harg7 arg8 harg8 arg9 harg9 x0 x1 x2 x3 x4 x5 x6).1
      = (pb_k0_t1 (F := Ideal) Variants.none c none i arg1 harg1 arg2 harg2 arg3 harg3 arg4 harg4 arg5 harg5 arg6 harg6 arg7 harg7 arg8 harg8 arg9 harg9 (View.readAt (Elt Ideal) arg4.view (Rect.unit (s := S256x512) ![0, 0] S256x512.size inb_S256x512_S256x512_0_0).toLoadRect (harg4.unread x3)) (View.readAt (Elt Ideal) arg5.view (Rect.unit (s := S1x512) ![0, 0] S1x512.size inb_S1x512_S1x512_0_0).toLoadRect (harg5.unread x4)) (View.readAt (Elt Ideal) arg6.view (Rect.unit (s := S128x128) ![0, 0] S128x128.size inb_S128x128_S128x128_0_0).toLoadRect (harg6.unread x5)) (View.readAt (Elt Ideal) arg7.view (Rect.unit (s := S1x128) ![0, 0] S1x128.size inb_S1x128_S1x128_0_0).toLoadRect (harg7.unread x6)) (harg1.unread x0) (harg2.unread x1) (harg3.unread x2) k0_t1_loop.trips).1 := by
    unfold bodyRun; rfl
  have hc := cover_hidden c i arg1 harg1 arg2 harg2 arg3 harg3 arg4 harg4 arg5 harg5 arg6 harg6 arg7 harg7 arg8 harg8 arg9 harg9 x0 x1 x2 x3 x4 x5 x6 y
  rw [hL] at hc ⊢
  rw [View.canon_apply_of_pieces _ _ (hidden_pieces Variants.none c none i arg1 harg1 arg2 harg2 arg3 harg3 arg4 harg4 arg5 harg5 arg6 harg6 arg7 harg7 arg8 harg8 arg9 harg9 _ _ _ _ _ _ _ k0_t1_loop.trips) y hc]
  simp only [harg1.read_unread, harg2.read_unread, harg3.read_unread, harg4.read_unread, harg5.read_unread, harg6.read_unread, harg7.read_unread,
    View.readAt_eq_ld, View.ld_unit_zero (S := S256x512) zero_off, View.ld_unit_zero (S := S1x512) zero_off, View.ld_unit_zero (S := S128x128) zero_off, View.ld_unit_zero (S := S1x128) zero_off]

/-- The cell block after the body is the block function of the input blocks. -/
theorem cellOut_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole) (x0 : Vec Ideal S4096x128 .f32) (x1 : Vec Ideal S4096x128 .f32) (x2 : Vec Ideal S4096x128 .f32) (x3 : Vec Ideal S256x512 .bf16) (x4 : Vec Ideal S1x512 .f32) (x5 : Vec Ideal S128x128 .bf16) (x6 : Vec Ideal S1x128 .f32) :
    cellOut (F := Ideal) c i arg1 harg1 arg2 harg2 arg3 harg3 arg4 harg4 arg5 harg5 arg6 harg6 arg7 harg7 arg8 harg8 arg9 harg9 x0 x1 x2 x3 x4 x5 x6 = cellBlk x0 x1 x2 x3 x4 := by
  unfold cellOut
  rw [View.read_writes_eq_canon _ _ _ (cover_cell c i arg1 harg1 arg2 harg2 arg3 harg3 arg4 harg4 arg5 harg5 arg6 harg6 arg7 harg7 arg8 harg8 arg9 harg9 x0 x1 x2 x3 x4 x5 x6)]
  funext y
  have hL : (bodyRun (F := Ideal) c i arg1 harg1 arg2 harg2 arg3 harg3 arg4 harg4 arg5 harg5 arg6 harg6 arg7 harg7 arg8 harg8 arg9 harg9 x0 x1 x2 x3 x4 x5 x6).2.1
      = (pb_k0_t1 (F := Ideal) Variants.none c none i arg1 harg1 arg2 harg2 arg3 harg3 arg4 harg4 arg5 harg5 arg6 harg6 arg7 harg7 arg8 harg8 arg9 harg9 (View.readAt (Elt Ideal) arg4.view (Rect.unit (s := S256x512) ![0, 0] S256x512.size inb_S256x512_S256x512_0_0).toLoadRect (harg4.unread x3)) (View.readAt (Elt Ideal) arg5.view (Rect.unit (s := S1x512) ![0, 0] S1x512.size inb_S1x512_S1x512_0_0).toLoadRect (harg5.unread x4)) (View.readAt (Elt Ideal) arg6.view (Rect.unit (s := S128x128) ![0, 0] S128x128.size inb_S128x128_S128x128_0_0).toLoadRect (harg6.unread x5)) (View.readAt (Elt Ideal) arg7.view (Rect.unit (s := S1x128) ![0, 0] S1x128.size inb_S1x128_S1x128_0_0).toLoadRect (harg7.unread x6)) (harg1.unread x0) (harg2.unread x1) (harg3.unread x2) k0_t1_loop.trips).2 := by
    unfold bodyRun; rfl
  have hc := cover_cell c i arg1 harg1 arg2 harg2 arg3 harg3 arg4 harg4 arg5 harg5 arg6 harg6 arg7 harg7 arg8 harg8 arg9 harg9 x0 x1 x2 x3 x4 x5 x6 y
  rw [hL] at hc ⊢
  rw [View.canon_apply_of_pieces _ _ (cell_pieces Variants.none c none i arg1 harg1 arg2 harg2 arg3 harg3 arg4 harg4 arg5 harg5 arg6 harg6 arg7 harg7 arg8 harg8 arg9 harg9 _ _ _ _ _ _ _ k0_t1_loop.trips) y hc]
  simp only [harg1.read_unread, harg2.read_unread, harg3.read_unread, harg4.read_unread, harg5.read_unread,
    View.readAt_eq_ld, View.ld_unit_zero (S := S256x512) zero_off, View.ld_unit_zero (S := S1x512) zero_off]

end Cert.KernelIdeal.Region

end
-- ==== Proof.IdealArrays.lean ====
/-
  The two result arrays of the idealized kernel after its run, as the LSTM specification of the argument arrays.

  What the region finds in its four resident operands: the fused weights are the four gates' weights joined along
  the columns (rounding to bf16 is the identity on extended reals), the fused bias row is the four biases joined and
  laid out as one row, the output projection is its argument, its bias row is the bias laid out as one row.

  Grid point `t` moves rows `4096 t … 4096 t + 4095` of the batch arrays in and of the result arrays out, and the
  resident operands are one block each. So the block point `t` writes back is block `t` of ONE array — the
  specification of the argument arrays — and the 64 blocks tile the 262144 rows: the result arrays end as the
  specification.
-/
import proofs.«123726_j30142080483674_2_alg».proof.Proof.IdealBlocks
import Idealize.ShloMosaic.Lib.ValueLayout
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The resident operands as the region finds them -/

/-- The fused gate weights: the four gates' weights joined along the columns. -/
def fusedW (c : Dev nD) : S256x512.Idx → EReal :=
  concatenate S256x512 1 [⟨S256x128, (m ((c : Thread nD τ).loc main_arg3))⟩, ⟨S256x128, (m ((c : Thread nD τ).loc main_arg5))⟩, ⟨S256x128, (m ((c : Thread nD τ).loc main_arg7))⟩, ⟨S256x128, (m ((c : Thread nD τ).loc main_arg9))⟩]
    concatenates_S256x128_S256x128_S256x128_S256x128_S256x512_d1

/-- The fused gate bias: the four gates' biases joined. -/
def fusedB (c : Dev nD) : S512.Idx → EReal :=
  concatenate S512 0 [⟨S128, (m ((c : Thread nD τ).loc main_arg4))⟩, ⟨S128, (m ((c : Thread nD τ).loc main_arg6))⟩, ⟨S128, (m ((c : Thread nD τ).loc main_arg8))⟩, ⟨S128, (m ((c : Thread nD τ).loc main_arg10))⟩]
    concatenates_S128_S128_S128_S128_S512_d0

theorem entry_fusedW (c : Dev nD) : (atEntry m c main_v1 : S256x512.Idx → EReal) = fusedW m c := by
  dsimp only [atEntry, hostOps0]; after_results; rfl

theorem entry_fusedB_row (c : Dev nD) :
    (atEntry m c main_v3 : S1x512.Idx → EReal) = shapeCast S1x512 (fusedB m c) shapeCasts_S512_S1x512 := by
  dsimp only [atEntry, hostOps0]; after_results; rfl

theorem entry_proj (c : Dev nD) : (atEntry m c main_v4 : S128x128.Idx → EReal) = (m ((c : Thread nD τ).loc main_arg11)) := by
  dsimp only [atEntry, hostOps0]; after_results; rfl

theorem entry_projB_row (c : Dev nD) :
    (atEntry m c main_v5 : S1x128.Idx → EReal) = shapeCast S1x128 (m ((c : Thread nD τ).loc main_arg12)) shapeCasts_S128_S1x128 := by
  dsimp only [atEntry, hostOps0]; after_results; rfl

/-! ## The index maps, decided over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 64 := N_0 ▸ t.isLt

/-- Row `r` of point `t`'s block is row `4096 t + r` of the batch. -/
def batchRow (t : Fin cfg0.N) (r : Fin 4096) : Fin 262144 :=
  ⟨4096 * t.val + r.val, by have := point_lt t; have := r.isLt; omega⟩

/-! ## The input blocks at a point, read at an index -/

theorem batch_block_0 (c : Dev nD) (t : Fin cfg0.N) (r : Fin 4096) (a : Fin 128) :
    blockAt m c 0 t (ix2 r a) = (m ((c : Thread nD τ).loc main_arg0)) (ix2 (batchRow t r) a) := by
  show atEntry m c main_arg0 (((cfg0.win 0).blk t).view.emb (ix2 r a)) = _
  rw [entry_arg0]
  congr 1
  funext d
  apply Fin.ext
  obtain ⟨e00, e01, e10, e11, e20, e21, -⟩ := idx_facts t
  match d with
  | ⟨0, _⟩ => show win0_0.index t (0 : Fin 2) * 4096 + 1 * r.val = 4096 * t.val + r.val; omega
  | ⟨1, _⟩ => show win0_0.index t (1 : Fin 2) * 128 + 1 * a.val = a.val; omega

theorem batch_block_1 (c : Dev nD) (t : Fin cfg0.N) (r : Fin 4096) (a : Fin 128) :
    blockAt m c 1 t (ix2 r a) = (m ((c : Thread nD τ).loc main_arg1)) (ix2 (batchRow t r) a) := by
  show atEntry m c main_arg1 (((cfg0.win 1).blk t).view.emb (ix2 r a)) = _
  rw [entry_arg1]
  congr 1
  funext d
  apply Fin.ext
  obtain ⟨e00, e01, e10, e11, e20, e21, -⟩ := idx_facts t
  match d with
  | ⟨0, _⟩ => show win0_1.index t (0 : Fin 2) * 4096 + 1 * r.val = 4096 * t.val + r.val; omega
  | ⟨1, _⟩ => show win0_1.index t (1 : Fin 2) * 128 + 1 * a.val = a.val; omega

theorem batch_block_2 (c : Dev nD) (t : Fin cfg0.N) (r : Fin 4096) (a : Fin 128) :
    blockAt m c 2 t (ix2 r a) = (m ((c : Thread nD τ).loc main_arg2)) (ix2 (batchRow t r) a) := by
  show atEntry m c main_arg2 (((cfg0.win 2).blk t).view.emb (ix2 r a)) = _
  rw [entry_arg2]
  congr 1
  funext d
  apply Fin.ext
  obtain ⟨e00, e01, e10, e11, e20, e21, -⟩ := idx_facts t
  match d with
  | ⟨0, _⟩ => show win0_2.index t (0 : Fin 2) * 4096 + 1 * r.val = 4096 * t.val + r.val; omega
  | ⟨1, _⟩ => show win0_2.index t (1 : Fin 2) * 128 + 1 * a.val = a.val; omega

theorem resident_W (c : Dev nD) (t : Fin cfg0.N) (k : Fin 256) (n : Fin 512) :
    blockAt m c 3 t (ix2 k n) = fusedW m c (ix2 k n) := by
  show atEntry m c main_v1 (((cfg0.win 3).blk t).view.emb (ix2 k n)) = _
  rw [entry_fusedW]
  congr 1
  funext d
  apply Fin.ext
  obtain ⟨-, -, -, -, -, -, e30, e31, -⟩ := idx_facts t
  match d with
  | ⟨0, _⟩ => show win0_3.index t (0 : Fin 2) * 256 + 1 * k.val = k.val; omega
  | ⟨1, _⟩ => show win0_3.index t (1 : Fin 2) * 512 + 1 * n.val = n.val; omega

theorem resident_b (c : Dev nD) (t : Fin cfg0.N) (n : Fin 512) :
    blockAt m c 4 t (ix2 0 n) = fusedB m c (ix1 n) := by
  have e : ((cfg0.win 4).blk t).view.emb (ix2 (0 : Fin 1) n) = ix2 (0 : Fin 1) n := by
    funext d
    apply Fin.ext
    obtain ⟨-, -, -, -, -, -, -, -, e40, e41, -⟩ := idx_facts t
    match d with
    | ⟨0, _⟩ => show win0_4.index t (0 : Fin 2) * 1 + 1 * 0 = 0; omega
    | ⟨1, _⟩ => show win0_4.index t (1 : Fin 2) * 512 + 1 * n.val = n.val; omega
  show atEntry m c main_v3 (((cfg0.win 4).blk t).view.emb (ix2 (0 : Fin 1) n)) = _
  rw [e, entry_fusedB_row]
  exact shapeCast_a_1a_apply _ _ 0 n

theorem resident_U (c : Dev nD) (t : Fin cfg0.N) (k n : Fin 128) :
    blockAt m c 5 t (ix2 k n) = (m ((c : Thread nD τ).loc main_arg11)) (ix2 k n) := by
  show atEntry m c main_v4 (((cfg0.win 5).blk t).view.emb (ix2 k n)) = _
  rw [entry_proj]
  congr 1
  funext d
  apply Fin.ext
  obtain ⟨-, -, -, -, -, -, -, -, -, -, e50, e51, -⟩ := idx_facts t
  match d with
  | ⟨0, _⟩ => show win0_5.index t (0 : Fin 2) * 128 + 1 * k.val = k.val; omega
  | ⟨1, _⟩ => show win0_5.index t (1 : Fin 2) * 128 + 1 * n.val = n.val; omega

theorem resident_d (c : Dev nD) (t : Fin cfg0.N) (n : Fin 128) :
    blockAt m c 6 t (ix2 0 n) = (m ((c : Thread nD τ).loc main_arg12)) (ix1 n) := by
  have e : ((cfg0.win 6).blk t).view.emb (ix2 (0 : Fin 1) n) = ix2 (0 : Fin 1) n := by
    funext d
    apply Fin.ext
    obtain ⟨-, -, -, -, -, -, -, -, -, -, -, -, e60, e61, -⟩ := idx_facts t
    match d with
    | ⟨0, _⟩ => show win0_6.index t (0 : Fin 2) * 1 + 1 * 0 = 0; omega
    | ⟨1, _⟩ => show win0_6.index t (1 : Fin 2) * 128 + 1 * n.val = n.val; omega
  show atEntry m c main_v5 (((cfg0.win 6).blk t).view.emb (ix2 (0 : Fin 1) n)) = _
  rw [e, entry_projB_row]
  exact shapeCast_a_1a_apply _ _ 0 n

/-! ## The result arrays -/

/-- The new hidden array and the new cell array: the specification of the argument arrays. -/
def hiddenFinal (c : Dev nD) : S262144x128.Idx → EReal :=
  Cert.LstmSpec.hiddenArr (m ((c : Thread nD τ).loc main_arg0)) (m ((c : Thread nD τ).loc main_arg1)) (m ((c : Thread nD τ).loc main_arg2)) (fusedW m c) (fusedB m c) (m ((c : Thread nD τ).loc main_arg11)) (m ((c : Thread nD τ).loc main_arg12))
def cellFinal (c : Dev nD) : S262144x128.Idx → EReal :=
  Cert.LstmSpec.cellArr (m ((c : Thread nD τ).loc main_arg0)) (m ((c : Thread nD τ).loc main_arg1)) (m ((c : Thread nD τ).loc main_arg2)) (fusedW m c) (fusedB m c)

/-- Entry `(r, j)` of point `t`'s block of result 0 is entry `(4096 t + r, j)` of its array. -/
theorem out_idx_7 (t : Fin cfg0.N) (r : Fin 4096) (j : Fin 128) :
    ((cfg0.win 7).blk t).view.emb (ix2 r j) = ix2 (batchRow t r) j := by
  funext d
  apply Fin.ext
  obtain ⟨-, -, -, -, -, -, -, -, -, -, -, -, -, -, e70, e71, e80, e81⟩ := idx_facts t
  match d with
  | ⟨0, _⟩ => show win0_7.index t (0 : Fin 2) * 4096 + 1 * r.val = 4096 * t.val + r.val; omega
  | ⟨1, _⟩ => show win0_7.index t (1 : Fin 2) * 128 + 1 * j.val = j.val; omega

/-- Entry `(r, j)` of point `t`'s block of result 1 is entry `(4096 t + r, j)` of its array. -/
theorem out_idx_8 (t : Fin cfg0.N) (r : Fin 4096) (j : Fin 128) :
    ((cfg0.win 8).blk t).view.emb (ix2 r j) = ix2 (batchRow t r) j := by
  funext d
  apply Fin.ext
  obtain ⟨-, -, -, -, -, -, -, -, -, -, -, -, -, -, e70, e71, e80, e81⟩ := idx_facts t
  match d with
  | ⟨0, _⟩ => show win0_8.index t (0 : Fin 2) * 4096 + 1 * r.val = 4096 * t.val + r.val; omega
  | ⟨1, _⟩ => show win0_8.index t (1 : Fin 2) * 128 + 1 * j.val = j.val; omega

/-- Row `r` of the hidden block built from point `t`'s input blocks is row `4096 t + r` of the specification:
    the three batch blocks' rows are the batch arrays' rows, the resident operands are whole. -/
theorem hidden_block_eq (c : Dev nD) (t : Fin cfg0.N) (r : Fin 4096) (j : Fin 128) :
    hiddenBlk (blockAt m c 0 t) (blockAt m c 1 t) (blockAt m c 2 t) (blockAt m c 3 t) (blockAt m c 4 t) (blockAt m c 5 t) (blockAt m c 6 t) (ix2 r j)
      = hiddenFinal m c (ix2 (batchRow t r) j) := by
  show Cert.LstmSpec.hiddenNew (Cert.LstmSpec.joined (fun a => blockAt m c 0 t (ix2 r a)) (fun a => blockAt m c 1 t (ix2 r a)))
      (fun k n => blockAt m c 3 t (ix2 k n)) (fun n => blockAt m c 4 t (ix2 0 n)) (fun a => blockAt m c 2 t (ix2 r a))
      (fun k n => blockAt m c 5 t (ix2 k n)) (fun n => blockAt m c 6 t (ix2 0 n)) j
    = Cert.LstmSpec.hiddenNew (Cert.LstmSpec.joined (fun a => (m ((c : Thread nD τ).loc main_arg0)) (ix2 (batchRow t r) a)) (fun a => (m ((c : Thread nD τ).loc main_arg1)) (ix2 (batchRow t r) a)))
      (fun k n => fusedW m c (ix2 k n)) (fun n => fusedB m c (ix1 n)) (fun a => (m ((c : Thread nD τ).loc main_arg2)) (ix2 (batchRow t r) a))
      (fun k n => (m ((c : Thread nD τ).loc main_arg11)) (ix2 k n)) (fun n => (m ((c : Thread nD τ).loc main_arg12)) (ix1 n)) j
  simp only [batch_block_0, batch_block_1, batch_block_2, resident_W, resident_b, resident_U, resident_d]

/-- The same for the cell block. -/
theorem cell_block_eq (c : Dev nD) (t : Fin cfg0.N) (r : Fin 4096) (j : Fin 128) :
    cellBlk (blockAt m c 0 t) (blockAt m c 1 t) (blockAt m c 2 t) (blockAt m c 3 t) (blockAt m c 4 t) (ix2 r j)
      = cellFinal m c (ix2 (batchRow t r) j) := by
  show Cert.LstmSpec.cellNew (Cert.LstmSpec.joined (fun a => blockAt m c 0 t (ix2 r a)) (fun a => blockAt m c 1 t (ix2 r a)))
      (fun k n => blockAt m c 3 t (ix2 k n)) (fun n => blockAt m c 4 t (ix2 0 n)) (fun a => blockAt m c 2 t (ix2 r a)) j
    = Cert.LstmSpec.cellNew (Cert.LstmSpec.joined (fun a => (m ((c : Thread nD τ).loc main_arg0)) (ix2 (batchRow t r) a)) (fun a => (m ((c : Thread nD τ).loc main_arg1)) (ix2 (batchRow t r) a)))
      (fun k n => fusedW m c (ix2 k n)) (fun n => fusedB m c (ix1 n)) (fun a => (m ((c : Thread nD τ).loc main_arg2)) (ix2 (batchRow t r) a)) j
  simp only [batch_block_0, batch_block_1, batch_block_2, resident_W, resident_b]

/-- What point `t` writes back into the hidden array is block `t` of the specification. -/
theorem flushed_hidden (c : Dev nD) (t : Fin cfg0.N) :
    (dats m 0 c).flushed 7 t = ((cfg0.win 7).blk t).view.read (Elt Ideal) (hiddenFinal m c) := by
  show (cfg0.win 7).cut (grid0.coords t) ((dats m 0 c).after 7 t) = _
  rw [after_7]
  unfold hiddenAt
  rw [hiddenOut_eq]
  funext y
  obtain ⟨r, j, rfl⟩ : ∃ (r : Fin 4096) (j : Fin 128), y = ix2 r j := ⟨y 0, y 1, eq_ix2 y⟩
  show hiddenBlk (blockAt m c 0 t) (blockAt m c 1 t) (blockAt m c 2 t) (blockAt m c 3 t) (blockAt m c 4 t) (blockAt m c 5 t) (blockAt m c 6 t) (ix2 r j)
    = hiddenFinal m c (((cfg0.win 7).blk t).view.emb (ix2 r j))
  rw [out_idx_7, hidden_block_eq]

/-- What point `t` writes back into the cell array is block `t` of the specification. -/
theorem flushed_cell (c : Dev nD) (t : Fin cfg0.N) :
    (dats m 0 c).flushed 8 t = ((cfg0.win 8).blk t).view.read (Elt Ideal) (cellFinal m c) := by
  show (cfg0.win 8).cut (grid0.coords t) ((dats m 0 c).after 8 t) = _
  rw [after_8]
  unfold cellAt
  rw [cellOut_eq]
  funext y
  obtain ⟨r, j, rfl⟩ : ∃ (r : Fin 4096) (j : Fin 128), y = ix2 r j := ⟨y 0, y 1, eq_ix2 y⟩
  show cellBlk (blockAt m c 0 t) (blockAt m c 1 t) (blockAt m c 2 t) (blockAt m c 3 t) (blockAt m c 4 t) (ix2 r j)
    = cellFinal m c (((cfg0.win 8).blk t).view.emb (ix2 r j))
  rw [out_idx_8, cell_block_eq]

/-! ## The blocks tile the arrays -/

theorem mem_blk_7 (t : Fin cfg0.N) (i : S262144x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v6_0).slice (win0_7.rect t)).set ↔ _
  rw [View.set_slice_whole, Rect.mem_set_unit]
  exact Iff.rfl

/-- Row `r` of the array is in the block of point `r / 4096`. -/
theorem cover_7 (i : S262144x128.Idx) : ∃ t : Fin cfg0.N, (cfg0.win 7).flush t = true ∧ i ∈ ((cfg0.win 7).blk t).view.set := by
  have hi0 : (i 0).val < 262144 := (i 0).isLt
  have hi1 : (i 1).val < 128 := (i 1).isLt
  have hN : cfg0.N = 64 := N_0
  refine ⟨⟨(i 0).val / 4096, by rw [hN]; omega⟩, flush0_7 _, ?_⟩
  rw [mem_blk_7]
  obtain ⟨-, -, -, -, -, -, -, -, -, -, -, -, -, -, e70, e71, e80, e81⟩ := idx_facts ⟨(i 0).val / 4096, by rw [hN]; omega⟩
  intro a
  match a with
  | ⟨0, _⟩ =>
    show win0_7.index ⟨(i 0).val / 4096, _⟩ (0 : Fin 2) * 4096 ≤ (i 0).val ∧ (i 0).val < win0_7.index ⟨(i 0).val / 4096, _⟩ (0 : Fin 2) * 4096 + 4096
    simp only [] at e70 e80
    omega
  | ⟨1, _⟩ =>
    show win0_7.index ⟨(i 0).val / 4096, _⟩ (1 : Fin 2) * 128 ≤ (i 1).val ∧ (i 1).val < win0_7.index ⟨(i 0).val / 4096, _⟩ (1 : Fin 2) * 128 + 128
    omega

theorem mem_blk_8 (t : Fin cfg0.N) (i : S262144x128.Idx) :
    i ∈ ((cfg0.win 8).blk t).view.set ↔ ∀ a : Fin 2, win0_8.index t a * S4096x128.size a ≤ (i a).val ∧ (i a).val < win0_8.index t a * S4096x128.size a + S4096x128.size a := by
  show i ∈ ((View.whole main_v6_1).slice (win0_8.rect t)).set ↔ _
  rw [View.set_slice_whole, Rect.mem_set_unit]
  exact Iff.rfl

/-- Row `r` of the array is in the block of point `r / 4096`. -/
theorem cover_8 (i : S262144x128.Idx) : ∃ t : Fin cfg0.N, (cfg0.win 8).flush t = true ∧ i ∈ ((cfg0.win 8).blk t).view.set := by
  have hi0 : (i 0).val < 262144 := (i 0).isLt
  have hi1 : (i 1).val < 128 := (i 1).isLt
  have hN : cfg0.N = 64 := N_0
  refine ⟨⟨(i 0).val / 4096, by rw [hN]; omega⟩, flush0_8 _, ?_⟩
  rw [mem_blk_8]
  obtain ⟨-, -, -, -, -, -, -, -, -, -, -, -, -, -, e70, e71, e80, e81⟩ := idx_facts ⟨(i 0).val / 4096, by rw [hN]; omega⟩
  intro a
  match a with
  | ⟨0, _⟩ =>
    show win0_8.index ⟨(i 0).val / 4096, _⟩ (0 : Fin 2) * 4096 ≤ (i 0).val ∧ (i 0).val < win0_8.index ⟨(i 0).val / 4096, _⟩ (0 : Fin 2) * 4096 + 4096
    simp only [] at e70 e80
    omega
  | ⟨1, _⟩ =>
    show win0_8.index ⟨(i 0).val / 4096, _⟩ (1 : Fin 2) * 128 ≤ (i 1).val ∧ (i 1).val < win0_8.index ⟨(i 0).val / 4096, _⟩ (1 : Fin 2) * 128 + 128
    omega

/-- The hidden array after the run is the specification. -/
theorem final_hidden (c : Dev nD) : (dats m 0 c).arrAt 7 cfg0.N = hiddenFinal m c :=
  (dats m 0 c).arrAt_eq_of_cover 7 (hiddenFinal m c) (fun t _ => flushed_hidden m c t) cover_7

/-- The cell array after the run is the specification. -/
theorem final_cell (c : Dev nD) : (dats m 0 c).arrAt 8 cfg0.N = cellFinal m c :=
  (dats m 0 c).arrAt_eq_of_cover 8 (cellFinal m c) (fun t _ => flushed_cell m c t) cover_8

/-! ## The run, with both results named -/

theorem run_value : θ_run defs (onTc (τ := τ) (main (F := Ideal))) ⟨m, fun _ => 0, ρ⟩ fun r => ∀ c : Dev nD,
      r.2.mem ((c.tc : Thread nD τ).loc main_v6_0) = hiddenFinal m c
      ∧ r.2.mem ((c.tc : Thread nD τ).loc main_v6_1) = cellFinal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).1 7).trans (final_hidden m c), ((h c).1 8).trans (final_cell m c),
      args_as_launched m (dats m) (arrays_at_entry m) r h c⟩)
    (run_main m ρ)

end Cert.KernelIdeal.Region

end
-- ==== Proof.RefRow.lean ====
/-
  The jnp reference of the LSTM cell computes the specification of Proof/LstmSpec.lean, entry by entry.

  The reference joins the input and hidden rows, multiplies the joined batch by the fused weight matrix, adds the
  fused bias, cuts the 512 lanes into the four gates' 128-lane slices, applies the sigmoid (spelt
  1 / (1 + e^(-x)) with the constant 1.0) to the forget, input and output slices and tanh to the candidate slice,
  forms the new cell array, projects it through the output matrix, adds the output bias, applies tanh and
  multiplies by the output gate. Read at the entry (r, j) each of these stages is the matching piece of the
  specification at row r: the fused pre-activation is `gate` at a lane, the sliced lanes are `lane g j`, and
  1 / (1 + e^(-x)) is the logistic function by its definition. The fused weights and the fused bias are never
  opened: they enter the specification as the very terms the reference builds.
-/
import proofs.«123726_j30142080483674_2_alg».proof.Proof.Gen.ReferenceIdeal.Read
import proofs.«123726_j30142080483674_2_alg».proof.Proof.LstmSpec
import Idealize.ShloMosaic.Lib.ValueIdx
import Idealize.ShloMosaic.Lib.Pipeline.Value
import Idealize.ShloMosaic.PureOps.Ideal.Laws

noncomputable section

namespace Cert.RefRow

open Cert.ReferenceIdeal Cert.ReferenceIdeal.Read Cert.LstmSpec Idealize.ShloMosaic Idealize.ShloMosaic.ValueIdx
open scoped BigOperators

/-- The word of `1.0` in f32 denotes the real number 1. -/
theorem one_f32 : Ideal.ofBits .f32 0x3F800000#32 = 1 := by
  simp [Ideal.ofBits, Ideal.ieee, -EReal.coe_mul]; norm_num

/-! ## The joined batch `[x | h]` read at an entry -/

/-- Entry `(r, k)` of the concatenation of `x` and `h` along the lanes is entry `k` of the joined row `r`:
    `x r k` below 128 and `h r (k - 128)` from 128 on. -/
theorem joined_read (x0 x1 : (⟨S262144x128, .f32⟩ : BufTy).Contents (Elt Ideal)) (r : Fin 262144) (k : Fin 256) :
    val_main_v0 (F := Ideal) x0 x1 (ix2 r k) = joinedRow x0 x1 r k := by
  unfold val_main_v0 joinedRow
  by_cases h : k.val < 128
  · rw [joined_lt _ _ k h]
    exact concatenate_pair_apply_left 1 x0 x1 _ (ix2 r k) rfl (ix2 r ⟨k.val, h⟩) (fun b => by
      match b with
      | ⟨0, _⟩ => rfl
      | ⟨1, _⟩ => rfl)
  · have h' : 128 ≤ k.val := Nat.le_of_not_lt h
    rw [joined_ge _ _ k h']
    exact concatenate_pair_apply_right 1 x0 x1 _ (ix2 r k) rfl rfl
      (ix2 r ⟨k.val - 128, by have := k.isLt; omega⟩)
      (fun b hb => by
        match b with
        | ⟨0, _⟩ => rfl
        | ⟨1, _⟩ => exact absurd rfl hb)
      (by show (k.val - 128) + 128 = k.val; omega)

/-! ## The index functions of the reference's layout operations, at an entry given by its coordinates -/

theorem lidx3 (r : Fin 262144) (n : Fin 512) (k : Fin 256) : lidx_main_v3 (ix2 r n) k = ix2 r k :=
  funext fun a => Fin.ext (by match a with | ⟨0, _⟩ => rfl | ⟨1, _⟩ => rfl)

theorem ridx3 (r : Fin 262144) (n : Fin 512) (k : Fin 256) : ridx_main_v3 (ix2 r n) k = ix2 k n :=
  funext fun a => Fin.ext (by match a with | ⟨0, _⟩ => rfl | ⟨1, _⟩ => rfl)

/-- The bias is broadcast along the rows: entry `(r, n)` of the broadcast reads entry `n` of the bias. -/
theorem idx45 (r : Fin 262144) (n : Fin 512) : idx_main_v4 (idx_main_v5 (ix2 r n)) = ix1 n :=
  funext fun a => Fin.ext (by match a with | ⟨0, _⟩ => rfl)

/-- The four slices of the 512 lanes: slice `g` at lane `j` reads lane `128 g + j`. -/
theorem idx7 (r : Fin 262144) (j : Fin 128) : idx_main_v7 (ix2 r j) = ix2 r (lane 0 j) :=
  funext fun a => Fin.ext (by
    match a with
    | ⟨0, _⟩ => rfl
    | ⟨1, _⟩ => show j.val = 128 * 0 + j.val; omega)

theorem idx8 (r : Fin 262144) (j : Fin 128) : idx_main_v8 (ix2 r j) = ix2 r (lane 1 j) :=
  funext fun a => Fin.ext (by
    match a with
    | ⟨0, _⟩ => rfl
    | ⟨1, _⟩ => show 128 + j.val = 128 * 1 + j.val; omega)

theorem idx9 (r : Fin 262144) (j : Fin 128) : idx_main_v9 (ix2 r j) = ix2 r (lane 2 j) :=
  funext fun a => Fin.ext (by
    match a with
    | ⟨0, _⟩ => rfl
    | ⟨1, _⟩ => show 256 + j.val = 128 * 2 + j.val; omega)

theorem idx10 (r : Fin 262144) (j : Fin 128) : idx_main_v10 (ix2 r j) = ix2 r (lane 3 j) :=
  funext fun a => Fin.ext (by
    match a with
    | ⟨0, _⟩ => rfl
    | ⟨1, _⟩ => show 384 + j.val = 128 * 3 + j.val; omega)

theorem lidx33 (r : Fin 262144) (j : Fin 128) (k : Fin 128) : lidx_main_v33 (ix2 r j) k = ix2 r k :=
  funext fun a => Fin.ext (by match a with | ⟨0, _⟩ => rfl | ⟨1, _⟩ => rfl)

theorem ridx33 (r : Fin 262144) (j : Fin 128) (k : Fin 128) : ridx_main_v33 (ix2 r j) k = ix2 k j :=
  funext fun a => Fin.ext (by match a with | ⟨0, _⟩ => rfl | ⟨1, _⟩ => rfl)

theorem idx3435 (r : Fin 262144) (j : Fin 128) : idx_main_v34 (idx_main_v35 (ix2 r j)) = ix1 j :=
  funext fun a => Fin.ext (by match a with | ⟨0, _⟩ => rfl)

/-! ## The stages of the reference at an entry `(r, j)` -/

section Stages

variable (x0 x1 x2 : (⟨S262144x128, .f32⟩ : BufTy).Contents (Elt Ideal))
  (x3 : (⟨S256x128, .f32⟩ : BufTy).Contents (Elt Ideal)) (x4 : (⟨S128, .f32⟩ : BufTy).Contents (Elt Ideal))
  (x5 : (⟨S256x128, .f32⟩ : BufTy).Contents (Elt Ideal)) (x6 : (⟨S128, .f32⟩ : BufTy).Contents (Elt Ideal))
  (x7 : (⟨S256x128, .f32⟩ : BufTy).Contents (Elt Ideal)) (x8 : (⟨S128, .f32⟩ : BufTy).Contents (Elt Ideal))
  (x9 : (⟨S256x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal))

/-- The fused weights by their two coordinates, and the fused bias by its one: the reference's own concatenations,
    never opened. -/
local notation "Wg" => (fun (k : Fin 256) (n : Fin 512) => val_main_v1 (F := Ideal) x3 x5 x7 x9 (ix2 k n))
local notation "bg" => (fun (n : Fin 512) => val_main_v2 (F := Ideal) x4 x6 x8 x10 (ix1 n))

/-- The fused pre-activation: the joined row `r` against column `n` of the fused weights, plus the bias at `n`. -/
theorem pre_eq (r : Fin 262144) (n : Fin 512) :
    val_main_v6 (F := Ideal) x0 x1 x3 x4 x5 x6 x7 x8 x9 x10 (ix2 r n) = gate (joinedRow x0 x1 r) Wg bg n := by
  rw [val_main_v6_apply, val_main_v3_apply, val_main_v5_apply, val_main_v4_apply, idx45]
  simp only [Ideal.addf_def, lidx3, ridx3, joined_read]
  rfl

/-- The forget gate: `1 / (1 + e^(-x))` of the pre-activation at lane `j`, which is the logistic function. -/
theorem forget_eq (r : Fin 262144) (j : Fin 128) :
    val_main_v16 (F := Ideal) x0 x1 x3 x4 x5 x6 x7 x8 x9 x10 (ix2 r j)
      = Ideal.logistic (gate (joinedRow x0 x1 r) Wg bg (lane 0 j)) := by
  rw [val_main_v16_apply, val_main_v15_apply, val_main_cst_0_apply, val_main_v14_apply, val_main_v13_apply,
    val_main_cst_apply, val_main_v12_apply, val_main_v11_apply, val_main_v7_apply, idx7, pre_eq]
  simp only [Ideal.hostDivf_def, Ideal.addf_def, Ideal.hostUnary_exp_def, Ideal.hostNegf_def, Ideal.negf_def,
    Ideal.ofBits_def, one_f32]
  rfl

/-- The input gate: the logistic function of the pre-activation at lane `128 + j`. -/
theorem input_eq (r : Fin 262144) (j : Fin 128) :
    val_main_v22 (F := Ideal) x0 x1 x3 x4 x5 x6 x7 x8 x9 x10 (ix2 r j)
      = Ideal.logistic (gate (joinedRow x0 x1 r) Wg bg (lane 1 j)) := by
  rw [val_main_v22_apply, val_main_v21_apply, val_main_cst_2_apply, val_main_v20_apply, val_main_v19_apply,
    val_main_cst_1_apply, val_main_v18_apply, val_main_v17_apply, val_main_v8_apply, idx8, pre_eq]
  simp only [Ideal.hostDivf_def, Ideal.addf_def, Ideal.hostUnary_exp_def, Ideal.hostNegf_def, Ideal.negf_def,
    Ideal.ofBits_def, one_f32]
  rfl

/-- The candidate: `tanh` of the pre-activation at lane `256 + j`. -/
theorem cand_eq (r : Fin 262144) (j : Fin 128) :
    val_main_v23 (F := Ideal) x0 x1 x3 x4 x5 x6 x7 x8 x9 x10 (ix2 r j)
      = Ideal.tanh (gate (joinedRow x0 x1 r) Wg bg (lane 2 j)) := by
  rw [val_main_v23_apply, val_main_v9_apply, idx9, pre_eq]
  simp only [Ideal.hostUnary_tanh_def]

/-- The output gate: the logistic function of the pre-activation at lane `384 + j`. -/
theorem output_eq (r : Fin 262144) (j : Fin 128) :
    val_main_v32 (F := Ideal) x0 x1 x3 x4 x5 x6 x7 x8 x9 x10 (ix2 r j)
      = Ideal.logistic (gate (joinedRow x0 x1 r) Wg bg (lane 3 j)) := by
  rw [val_main_v32_apply, val_main_v31_apply, val_main_cst_4_apply, val_main_v30_apply, val_main_v29_apply,
    val_main_cst_3_apply, val_main_v28_apply, val_main_v27_apply, val_main_v10_apply, idx10, pre_eq]
  simp only [Ideal.hostDivf_def, Ideal.addf_def, Ideal.hostUnary_exp_def, Ideal.hostNegf_def, Ideal.negf_def,
    Ideal.ofBits_def, one_f32]
  rfl

/-- The new cell entry: forget gate times the old cell entry, plus input gate times candidate. -/
theorem cell_at (r : Fin 262144) (j : Fin 128) :
    val_main_v26 (F := Ideal) x0 x1 x2 x3 x4 x5 x6 x7 x8 x9 x10 (ix2 r j)
      = cellNew (joinedRow x0 x1 r) Wg bg (rowOf x2 r) j := by
  rw [val_main_v26_apply, val_main_v24_apply, val_main_v25_apply, forget_eq, input_eq, cand_eq]
  simp only [Ideal.addf_def, Ideal.mulf_def]
  rfl

/-- The new hidden entry: output gate times `tanh` of the new cell row `r` against column `j` of the output
    projection, plus the output bias at `j`. -/
theorem hidden_at (r : Fin 262144) (j : Fin 128) :
    val_main_v38 (F := Ideal) x0 x1 x2 x3 x4 x5 x6 x7 x8 x9 x10 x11 x12 (ix2 r j)
      = hiddenNew (joinedRow x0 x1 r) Wg bg (rowOf x2 r) (fun k n => x11 (ix2 k n)) (fun n => x12 (ix1 n)) j := by
  rw [val_main_v38_apply, output_eq, val_main_v37_apply, val_main_v36_apply, val_main_v33_apply, val_main_v35_apply,
    val_main_v34_apply, idx3435]
  simp only [lidx33, ridx33, cell_at, Ideal.mulf_def, Ideal.addf_def, Ideal.hostUnary_tanh_def]
  rfl

end Stages

/-! ## The two results of the reference are the specification's arrays -/

/-- The reference's new cell array is the specification's, over the reference's own fused weights and bias. -/
theorem ref_cell (x0 x1 x2 : (⟨S262144x128, .f32⟩ : BufTy).Contents (Elt Ideal))
    (x3 : (⟨S256x128, .f32⟩ : BufTy).Contents (Elt Ideal)) (x4 : (⟨S128, .f32⟩ : BufTy).Contents (Elt Ideal))
    (x5 : (⟨S256x128, .f32⟩ : BufTy).Contents (Elt Ideal)) (x6 : (⟨S128, .f32⟩ : BufTy).Contents (Elt Ideal))
    (x7 : (⟨S256x128, .f32⟩ : BufTy).Contents (Elt Ideal)) (x8 : (⟨S128, .f32⟩ : BufTy).Contents (Elt Ideal))
    (x9 : (⟨S256x128, .f32⟩ : BufTy).Contents (Elt Ideal)) (x10 : (⟨S128, .f32⟩ : BufTy).Contents (Elt Ideal)) :
    Cert.ReferenceIdeal.Read.val_main_v26 (F := Ideal) x0 x1 x2 x3 x4 x5 x6 x7 x8 x9 x10
      = Cert.LstmSpec.cellArr x0 x1 x2 (Cert.ReferenceIdeal.Read.val_main_v1 (F := Ideal) x3 x5 x7 x9)
          (Cert.ReferenceIdeal.Read.val_main_v2 (F := Ideal) x4 x6 x8 x10) := by
  funext i
  rw [eq_ix2 i]
  exact cell_at x0 x1 x2 x3 x4 x5 x6 x7 x8 x9 x10 (i 0) (i 1)

/-- The reference's new hidden array is the specification's, over the reference's own fused weights and bias. -/
theorem ref_hidden (x0 x1 x2 : (⟨S262144x128, .f32⟩ : BufTy).Contents (Elt Ideal))
    (x3 : (⟨S256x128, .f32⟩ : BufTy).Contents (Elt Ideal)) (x4 : (⟨S128, .f32⟩ : BufTy).Contents (Elt Ideal))
    (x5 : (⟨S256x128, .f32⟩ : BufTy).Contents (Elt Ideal)) (x6 : (⟨S128, .f32⟩ : BufTy).Contents (Elt Ideal))
    (x7 : (⟨S256x128, .f32⟩ : BufTy).Contents (Elt Ideal)) (x8 : (⟨S128, .f32⟩ : BufTy).Contents (Elt Ideal))
    (x9 : (⟨S256x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal)) :
    Cert.ReferenceIdeal.Read.val_main_v38 (F := Ideal) x0 x1 x2 x3 x4 x5 x6 x7 x8 x9 x10 x11 x12
      = Cert.LstmSpec.hiddenArr x0 x1 x2 (Cert.ReferenceIdeal.Read.val_main_v1 (F := Ideal) x3 x5 x7 x9)
          (Cert.ReferenceIdeal.Read.val_main_v2 (F := Ideal) x4 x6 x8 x10) x11 x12 := by
  funext i
  rw [eq_ix2 i]
  exact hidden_at x0 x1 x2 x3 x4 x5 x6 x7 x8 x9 x10 x11 x12 (i 0) (i 1)

end Cert.RefRow

end
-- ==== Proof.lean ====
/-
  A fused LSTM cell on a batch of 262144 rows: a tiled kernel against the plain jnp reference, equal over the
  extended reals.

  Both programs join the four gates' weights into one 256 by 512 matrix and the four biases into one 512-vector,
  multiply the joined row `[x | h]` by it, add the bias, and cut the 512 pre-activations into the forget, input,
  candidate and output gates; then `c' = σ(f) · c + σ(i) · tanh(g)` and `h' = σ(o) · tanh(c' · U + d)`. The kernel
  does this on blocks of 4096 rows, four chunks of 1024 rows per block, with the weights rounded to bf16 (the
  identity on extended reals) and the sigmoid as one operation; the reference does it on the whole batch with the
  sigmoid spelled `1 / (1 + e^(-x))`, which is the same function on every extended real. Each side is shown to
  compute ONE specification (`Cert.LstmSpec`) of the argument arrays, index by index; the two sides differ only in
  how the rows are tiled and in the grouping of finite sums, so no finiteness of the inputs is needed and the
  precondition is never opened.

  The three frames: each kernel program's is its run through the launch library with the body's four trips taken
  by the loop's invariant; the reference's is its run with the results dropped. The idealization rewrote no
  operation, so there is nothing to preserve.
-/
import proofs.«123726_j30142080483674_2_alg».proof.Defs
import proofs.«123726_j30142080483674_2_alg».proof.Proof.Gen.Kernel
import proofs.«123726_j30142080483674_2_alg».proof.Proof.Gen.KernelIdeal
import proofs.«123726_j30142080483674_2_alg».proof.Proof.Gen.ReferenceIdeal
import proofs.«123726_j30142080483674_2_alg».proof.Proof.Gen.Pre_finite_inputs
import proofs.«123726_j30142080483674_2_alg».proof.Proof.Gen.ReferenceIdeal.Run
import proofs.«123726_j30142080483674_2_alg».proof.Proof.Gen.ReferenceIdeal.Read
import proofs.«123726_j30142080483674_2_alg».proof.Proof.BitsFrame
import proofs.«123726_j30142080483674_2_alg».proof.Proof.IdealArrays
import proofs.«123726_j30142080483674_2_alg».proof.Proof.RefRow
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Region.frame m ρ

/-- So does the idealized kernel. -/
theorem frame_kernel_ideal : Cert.frame_KernelIdeal := fun m ρ _ => Cert.KernelIdeal.Region.frame m ρ

/-- So does the reference: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with the same two arrays: the specification's new
    hidden array and new cell array of the arguments. -/
theorem algebraic : Cert.algebraic_KernelIdeal_ReferenceIdeal := by
  intro m ρ m' ρ' _ hagree
  refine ⟨fun c => Cert.KernelIdeal.Region.hiddenFinal m c, fun c => Cert.KernelIdeal.Region.cellFinal m c,
    Cert.KernelIdeal.Region.run_value m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11, a12⟩ := hagree c
    refine (h c).1.trans ?_
    rw [Cert.ReferenceIdeal.Read.val_main_v38_eq, Cert.RefRow.ref_hidden, a0, a1, a2, a3, a4, a5, a6, a7, a8, a9, a10, a11, a12]
    rfl
  · obtain ⟨a0, a1, a2, a3, a4, a5, a6, a7, a8, a9, a10, a11, a12⟩ := hagree c
    refine (h c).2.1.trans ?_
    refine (Cert.ReferenceIdeal.Read.val_main_v26_eq _ _ _ _ _ _ _ _ _ _ _).trans ?_
    rw [Cert.RefRow.ref_cell, a0, a1, a2, a3, a4, a5, a6, a7, a8, a9, a10]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
